-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S512x128 : Shape := ⟨2, ![512, 128]⟩
abbrev S512 : Shape := ⟨1, ![512]⟩
abbrev S64x512 : Shape := ⟨2, ![64, 512]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S512 .f32) (main_arg7 : FVec F S512 .f32) (main_arg8 : FVec F S64x512 .f32) (main_arg9 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S64x512 .f32 := Host.absf main_arg8
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S512x128 .f32) (main_arg5 : FVec F S512 .f32) (main_arg6 : FVec F S512 .f32) (main_arg7 : FVec F S512 .f32) (main_arg8 : FVec F S64x512 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S512x128 : Shape := ⟨2, ![512, 128]⟩
abbrev S512 : Shape := ⟨1, ![512]⟩
abbrev S64x512 : Shape := ⟨2, ![64, 512]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x512 : Shape := ⟨2, ![1, 512]⟩
abbrev S1x64 : Shape := ⟨2, ![1, 64]⟩
abbrev S5000x128 : Shape := ⟨2, ![5000, 128]⟩
abbrev S128x512 : Shape := ⟨2, ![128, 512]⟩
abbrev S5000x512 : Shape := ⟨2, ![5000, 512]⟩
abbrev S100000x64 : Shape := ⟨2, ![100000, 64]⟩
abbrev S5000x64 : Shape := ⟨2, ![5000, 64]⟩
abbrev S512x64 : Shape := ⟨2, ![512, 64]⟩

abbrev nBuf : Space → Nat
  | .hbm => 73
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S64x512, .f32⟩
  | .hbm, ⟨9, _⟩ => ⟨S64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x64, .f32⟩
  | .hbm, ⟨62, _⟩ => ⟨S1x512, .f32⟩
  | .hbm, ⟨63, _⟩ => ⟨S1x512, .f32⟩
  | .hbm, ⟨64, _⟩ => ⟨S_, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S512x128, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S5000x128, .f32⟩
  | .local _ .vmem, ⟨7, _⟩ => ⟨S5000x128, .f32⟩
  | .local _ .vmem, ⟨8, _⟩ => ⟨S512x128, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S64x512, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S512_S1x512 : S512.ShapeCasts S1x512
  shapeCasts_S64_S1x64 : S64.ShapeCasts S1x64
  inb_S1x512_S1x512_0_0 : ∀ a, (![0, 0] : Fin 2 → Nat) a + S1x512.size a ≤ S1x512.size a
  h_S1x512 : 0 < S1x512.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  shapeCasts_S1x512_S1x512 : S1x512.ShapeCasts S1x512
  broadcasts_S1x512_S5000x512 : S1x512.Broadcasts S5000x512
  reduces_S5000x512_S512 : S5000x512.Reduces [0] S512
  bcast_S_S1x512 : S_.BroadcastsInDim S1x512 (![] : Fin 0 → Fin S1x512.rank)
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x512_S5000x512_1_0_0_1_n_n_wf : DotDims.WF S5000x128 S128x512 S5000x512 [1] [0] [0] [1] [] []
  dot_S5000x512_S512x64_S5000x64_1_0_0_1_n_n_wf : DotDims.WF S5000x512 S512x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x512.size a ≤ S64x512.size a
  hwx1_7 : ∀ i : grid1.Coords, EltTy.bits .f32 = 32 ∨ (Rect.block (s := S64x512) S64x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43_0) S1x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43_1) S1x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v50) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S512x128 : Shape := ⟨2, ![512, 128]⟩
abbrev S512 : Shape := ⟨1, ![512]⟩
abbrev S64x512 : Shape := ⟨2, ![64, 512]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S128x512 : Shape := ⟨2, ![128, 512]⟩
abbrev S100000x512 : Shape := ⟨2, ![100000, 512]⟩
abbrev S1x512 : Shape := ⟨2, ![1, 512]⟩
abbrev S512x64 : Shape := ⟨2, ![512, 64]⟩
abbrev S100000x64 : Shape := ⟨2, ![100000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S64x512, .f32⟩
  | .hbm, ⟨9, _⟩ => ⟨S64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S128x512, .f32⟩
  | .hbm, ⟨59, _⟩ => ⟨S100000x512, .f32⟩
  | .hbm, ⟨60, _⟩ => ⟨S1x512, .f32⟩
  | .hbm, ⟨61, _⟩ => ⟨S100000x512, .f32⟩
  | .hbm, ⟨62, _⟩ => ⟨S100000x512, .f32⟩
  | .hbm, ⟨63, _⟩ => ⟨S_, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S_, .i32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S1x512, .f32⟩
  | .hbm, ⟨74, _⟩ => ⟨S1x512, .f32⟩
  | .hbm, ⟨75, _⟩ => ⟨S100000x512, .f32⟩
  | .hbm, ⟨76, _⟩ => ⟨S100000x512, .f32⟩
  | .hbm, ⟨77, _⟩ => ⟨S100000x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S512, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S512, .f32⟩
  | .hbm, ⟨90, _⟩ => ⟨S512, .f32⟩
  | .hbm, ⟨91, _⟩ => ⟨S1x512, .f32⟩
  | .hbm, ⟨92, _⟩ => ⟨S100000x512, .f32⟩
  | .hbm, ⟨93, _⟩ => ⟨S100000x512, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S512, .f32⟩
  | .hbm, ⟨98, _⟩ => ⟨S1x512, .f32⟩
  | .hbm, ⟨99, _⟩ => ⟨S100000x512, .f32⟩
  | .hbm, ⟨100, _⟩ => ⟨S100000x512, .f32⟩
  | .hbm, ⟨101, _⟩ => ⟨S1x512, .f32⟩
  | .hbm, ⟨102, _⟩ => ⟨S100000x512, .f32⟩
  | .hbm, ⟨103, _⟩ => ⟨S100000x512, .f32⟩
  | .hbm, ⟨104, _⟩ => ⟨S1x512, .f32⟩
  | .hbm, ⟨105, _⟩ => ⟨S100000x512, .f32⟩
  | .hbm, ⟨106, _⟩ => ⟨S100000x512, .f32⟩
  | .hbm, ⟨107, _⟩ => ⟨S_, .f32⟩
  | .hbm, ⟨108, _⟩ => ⟨S100000x512, .f32⟩
  | .hbm, ⟨109, _⟩ => ⟨S100000x512, .f32⟩
  | .hbm, ⟨110, _⟩ => ⟨S512x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_cst_3 : Ref sig .tc := ⟨.hbm, 85, rfl⟩
abbrev main_call0_v12 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_call1_cst : Ref sig .tc := ⟨.hbm, 107, rfl⟩
abbrev main_call1_v0 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S512_d0 : S100000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S100000x512 : S_.BroadcastsInDim S100000x512 (![] : Fin 0 → Fin S100000x512.rank)
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []
  dot_S100000x512_S512x64_S100000x64_1_0_0_1_n_n_wf : DotDims.WF S100000x512 S512x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf

class Facts : Prop extends Facts₀ where

variable [Facts]
-- ==== Proof.KRun.lean ====
/-
  What the two-region program leaves in its result buffer.

  The program is four segments: the host operations that propagate the features and reshape the vectors, the
  kernel region that accumulates the column sums, the host operations that turn the sums into mean and variance,
  and the kernel region that computes the output.  The buffer contents at each boundary are a fold through the
  segments (`Gen.W0` … `Gen.W4`); every weakly fair execution ends with every unscoped buffer at the last
  boundary's contents.  The frame keeps of this only that the arguments are unchanged; here the result buffer is
  kept too: it ends at `Gen.W4` read at the result's reference.
-/
import proofs.«110060_j49778670960917_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v50) = W4 m ρ c (Proc.devRef .tc main_v50)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v50 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.ValueRun

end
-- ==== Proof.LibRealArrays.lean ====
/-
  Arrays of real numbers among the extended reals: general lemmas, none about a particular program.

  At the ideal float instance an array entry is an extended real.  Laws that need finiteness (distributivity,
  cancelling) are applied to arrays all of whose entries are real numbers; this file says how such arrays arise and
  what they are closed under.

  * `IsReal f`: every entry of `f` is (the coercion of) a real number.
  * `coe_sum`, `IsReal.sum`: a finite sum of reals taken in the extended reals is the coercion of the real sum; a
    finite sum of entries of a real array is real.
  * `IsReal.broadcastInDim`, `IsReal.gather`, `IsReal.mulf`: an array read through an index map (a broadcast, a
    gather) has only entries of the array it reads, and a pointwise product of real arrays is real.
  * `scatterAdd_isReal`: a host scatter-add of real updates into an array of zeros is real (each entry is zero plus a
    finite sum of updates), whatever the scatter indices.
  * `real_var`: over the reals, the mean of the squares minus the squared mean is the mean of the squared deviations
    from the mean (for `N` the number of terms, nonzero).
  * `inf_bits`, `real_of_abs_lt`, `isReal_of_all`: the f32 word `0x7F800000` is +∞; an extended real whose absolute
    value `max x (-x)` compares below it is a real number; an array whose "every |entry| is below +∞" bit (the
    and-reduction over all axes of the pointwise comparison) is 1 is an array of reals.
-/
import Idealize.ShloMosaic.PureOps.Ideal
import Idealize.ShloMosaic.PureOps.Ideal.Laws
import Idealize.ShloMosaic.PureOps.Vector
import Idealize.ShloMosaic.PureOps.Contract
import Idealize.ShloMosaic.Lib.ReduceAll

noncomputable section

open scoped BigOperators

namespace Cert.RealArrays

open Idealize.ShloMosaic

/-! ## Real arrays and finite sums -/

/-- Every entry is a real number (neither infinity). -/
def IsReal {ι : Type} (f : ι → EReal) : Prop := ∀ i, ∃ r : ℝ, f i = (r : EReal)

/-- A finite sum of real numbers, taken in the extended reals, is the real sum. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A finite sum of entries of an array of reals is real. -/
theorem IsReal.sum {ι : Type} {f : ι → EReal} (hf : IsReal f) (s : Finset ι) : ∃ r : ℝ, (∑ i ∈ s, f i) = (r : EReal) := by
  choose g hg using hf
  exact ⟨∑ i ∈ s, g i, by rw [← coe_sum]; exact Finset.sum_congr rfl fun i _ => hg i⟩

/-! ## Reading through an index map, and products -/

/-- A broadcast of a real array is real: every entry of the result is an entry of the operand. -/
theorem IsReal.broadcastInDim {s t : Shape} {x : s.Idx → EReal} (hx : IsReal x) (dims : Fin s.rank → Fin t.rank)
    (h : s.BroadcastsInDim t dims) : IsReal (broadcastInDim t dims h x) :=
  fun _ => hx _

/-- A gather from a real array is real: every entry of the result is an entry of the operand. -/
theorem IsReal.gather {s si t : Shape} {w : ℕ} {x : s.Idx → EReal} (hx : IsReal x) (d : GatherDims s si t)
    (idx : IVec si w) : IsReal (Host.gather d x idx) :=
  fun _ => hx _

/-- A pointwise product of two real arrays is real. -/
theorem IsReal.mulf {s : Shape} {a b : FVec Ideal s .f32} (ha : IsReal a) (hb : IsReal b) : IsReal (mulf (F := Ideal) a b) := by
  intro i
  obtain ⟨p, hp⟩ := ha i
  obtain ⟨q, hq⟩ := hb i
  exact ⟨p * q, by show (a i : EReal) * b i = _; rw [hp, hq, EReal.coe_mul]⟩

/-! ## Scatter-add -/

/-- A scatter-add into an array of zeros of an array of reals is an array of reals: every entry is zero plus a finite
    sum of updates. -/
theorem scatterAdd_isReal {s si u : Shape} {w : ℕ} (d : ScatterDims s si u) (x : FVec Ideal s .f32) (idx : IVec si w)
    (upd : FVec Ideal u .f32) (hx : ∀ i, x i = 0) (hu : IsReal upd) :
    IsReal (Host.scatterAdd (F := Ideal) d x idx upd) := by
  intro i
  show ∃ r : ℝ, x i + (∑ j ∈ _, upd j) = (r : EReal)
  rw [hx i, zero_add]
  exact hu.sum _

/-! ## The two forms of the variance, over the reals -/

/-- Over the reals: the mean of the squared deviations is the mean of the squares minus the squared mean. -/
theorem real_var (n : ℕ) (x : Fin n → ℝ) (N : ℝ) (hN : N = n) (h0 : N ≠ 0) :
    (∑ r, x r * x r) * (1 / N) - ((∑ r, x r) * (1 / N)) * ((∑ r, x r) * (1 / N))
      = (∑ r, (x r - (∑ r, x r) * (1 / N)) * (x r - (∑ r, x r) * (1 / N))) * (1 / N) := by
  set S := ∑ r, x r with hS
  set μ := S * (1 / N) with hμ
  have e : (∑ r, (x r - μ) * (x r - μ)) = (∑ r, x r * x r) - 2 * μ * S + (n : ℝ) * (μ * μ) := by
    have : ∀ r, (x r - μ) * (x r - μ) = x r * x r - 2 * μ * x r + μ * μ := fun r => by ring
    simp only [this, Finset.sum_add_distrib, Finset.sum_sub_distrib, ← Finset.mul_sum, Finset.sum_const,
      Finset.card_univ, Fintype.card_fin, nsmul_eq_mul, ← hS]
    ring
  rw [e, ← hN, hμ]
  field_simp
  ring

/-! ## From "every absolute value is below +∞" to real entries -/

/-- The scalar shape has one index. -/
instance : Subsingleton (⟨0, ![]⟩ : Shape).Idx := ⟨fun a b => funext fun d => d.elim0⟩

/-- The word `0x7F800000` is +∞. -/
theorem inf_bits : Ideal.ofBits .f32 0x7F800000#32 = (⊤ : EReal) := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An array all of whose entries pass "absolute value below +∞" is an array of reals. -/
theorem isReal_of_all {s : Shape} {axes : List (Fin s.rank)} (a : FVec Ideal s .f32)
    (hb : (⟨0, ![]⟩ : Shape).BroadcastsInDim s (![] : Fin 0 → Fin s.rank)) (hred : s.ReducesTo axes (⟨0, ![]⟩ : Shape))
    (hS : 0 < (⟨0, ![]⟩ : Shape).numel) (j : (⟨0, ![]⟩ : Shape).Idx)
    (he : Host.reduce IntOp.andi (cmpf (F := Ideal) .olt (Host.absf a)
          (broadcastInDim s ![] hb (constant (⟨0, ![]⟩ : Shape) .f32 0x7F800000#32)))
        (constantI (⟨0, ![]⟩ : Shape) 1 1#1) hred hS j = 1#1) : IsReal a :=
  fun i => real_of_abs_lt (a i) (Host.reduce_andi_all _ _ hred hS j he i)

end Cert.RealArrays

end
-- ==== Proof.Spec.lean ====
/-
  The mathematics of this certificate, stated with no program in sight.

  A graph with 100000 nodes and 1600000 weighted edges carries a 128-wide feature row per node.  One propagation
  step sends along every edge `e` the row of its source node times the edge weight and sums, at every node, the
  rows that arrive there (`hop`); three steps give the propagated features.  On them sits a two-layer perceptron
  with batch normalisation between the layers: the hidden pre-activation `hid` (a row times the transposed first
  weight matrix, plus the bias), its column mean and column variance over all 100000 rows, the normalised, scaled,
  shifted and rectified activation `act`, and the output row `outv` (the activation row times the transposed second
  weight matrix, plus the bias).

  The one place where two programs computing this may differ is the variance: the mean of the squared deviations
  from the mean (`varTwoPass`) against the mean of the squares minus the squared mean (`varOnePass`).  The two are
  one number whenever the column is made of real numbers (`varOnePass_eq_varTwoPass`); at an infinite entry they are
  not, which is why the propagated features are shown to be real (`hop_isReal`): a row picked by an index is a row
  of reals, a product of reals is real, and a finite sum of reals is real.
-/
import Idealize.ShloMosaic.PureOps.Ideal
import Idealize.ShloMosaic.PureOps.Ideal.Laws
import Idealize.ShloMosaic.PureOps.Vector
import Idealize.ShloMosaic.PureOps.Contract
import Idealize.ShloMosaic.Lib.ValueIdx
import proofs.«110060_j49778670960917_1_alg».proof.Proof.LibRealArrays

noncomputable section

open scoped BigOperators

namespace Cert.GraphMlp

open Idealize.ShloMosaic Idealize.ShloMosaic.ValueIdx

export Cert.RealArrays (IsReal coe_sum scatterAdd_isReal real_var)

/-! ## The shapes -/

abbrev Nodes : Shape := ⟨2, ![100000, 128]⟩
abbrev Edges : Shape := ⟨1, ![1600000]⟩
abbrev EdgeCol : Shape := ⟨2, ![1600000, 1]⟩
abbrev Msgs : Shape := ⟨2, ![1600000, 128]⟩
abbrev Scalar0 : Shape := ⟨0, ![]⟩

/-! ## One propagation step, at any float instance -/

section Hop
variable {F : FTy → Type} [FloatOps F]
variable (dg : GatherDims Nodes EdgeCol Msgs) (ds : ScatterDims Nodes EdgeCol Msgs)
  (hE : Scalar0.BroadcastsInDim Edges (![] : Fin 0 → Fin Edges.rank))
  (hC : Edges.BroadcastsInDim EdgeCol (![0] : Fin 1 → Fin EdgeCol.rank))
  (hM : EdgeCol.BroadcastsInDim Msgs (![0, 1] : Fin 2 → Fin Msgs.rank))
  (hN : Scalar0.BroadcastsInDim Nodes (![] : Fin 0 → Fin Nodes.rank))

/-- One propagation step: edge `e` carries the row of node `src e` (a negative index counted from the end) times
    `nrm e` to node `dst e`; every node sums what arrives, starting from zero. -/
def hop (x : FVec F Nodes .f32) (src dst : IVec Edges 32) (nrm : FVec F Edges .f32) : FVec F Nodes .f32 :=
  Host.scatterAdd ds (broadcastInDim Nodes ![] hN (constant Scalar0 .f32 0x00000000#32))
    (broadcastInDim EdgeCol ![0] hC dst)
    (mulf (Host.gather dg x (broadcastInDim EdgeCol ![0] hC
        (select (cmpi .slt src (broadcastInDim Edges ![] hE (constantI Scalar0 32 0#32)))
          (addi src (broadcastInDim Edges ![] hE (constantI Scalar0 32 100000#32))) src)))
      (broadcastInDim Msgs ![0, 1] hM (broadcastInDim EdgeCol ![0] hC nrm)))

/-- Three propagation steps. -/
def hop3 (x : FVec F Nodes .f32) (src dst : IVec Edges 32) (nrm : FVec F Edges .f32) : FVec F Nodes .f32 :=
  hop dg ds hE hC hM hN (hop dg ds hE hC hM hN (hop dg ds hE hC hM hN x src dst nrm) src dst nrm) src dst nrm

end Hop

/-! ## Real features stay real through a propagation step -/

section HopReal
variable (dg : GatherDims Nodes EdgeCol Msgs) (ds : ScatterDims Nodes EdgeCol Msgs)
  (hE : Scalar0.BroadcastsInDim Edges (![] : Fin 0 → Fin Edges.rank))
  (hC : Edges.BroadcastsInDim EdgeCol (![0] : Fin 1 → Fin EdgeCol.rank))
  (hM : EdgeCol.BroadcastsInDim Msgs (![0, 1] : Fin 2 → Fin Msgs.rank))
  (hN : Scalar0.BroadcastsInDim Nodes (![] : Fin 0 → Fin Nodes.rank))

/-- The messages of one step — the gathered rows times the edge weights — are real when the features and the weights
    are: an entry picked by an index is one of the entries. -/
theorem msg_isReal (x : FVec Ideal Nodes .f32) (idx : IVec EdgeCol 32) (nrm : FVec Ideal Edges .f32)
    (hx : IsReal x) (hn : IsReal nrm) :
    IsReal (mulf (F := Ideal) (Host.gather dg x idx) (broadcastInDim Msgs ![0, 1] hM (broadcastInDim EdgeCol ![0] hC nrm))) := by
  intro j
  obtain ⟨a, ha⟩ := hx (dg.operandIdx j idx)
  have hb : ∃ b : ℝ, (broadcastInDim Msgs ![0, 1] hM (broadcastInDim EdgeCol ![0] hC nrm)) j = (b : EReal) := hn _
  obtain ⟨b, hb⟩ := hb
  refine ⟨a * b, ?_⟩
  show (x (dg.operandIdx j idx) : EReal) * (broadcastInDim Msgs ![0, 1] hM (broadcastInDim EdgeCol ![0] hC nrm)) j = _
  rw [ha, hb, EReal.coe_mul]

/-- A propagation step of real features along real edge weights gives real features: each node's row is zero plus a
    finite sum of products of two reals. -/
theorem hop_isReal (x : FVec Ideal Nodes .f32) (src dst : IVec Edges 32) (nrm : FVec Ideal Edges .f32)
    (hx : IsReal x) (hn : IsReal nrm) : IsReal (hop (F := Ideal) dg ds hE hC hM hN x src dst nrm) :=
  scatterAdd_isReal ds _ _ _
    (fun i => show Ideal.ofBits .f32 0x00000000#32 = 0 from Ideal.ofBits_zero_f32)
    (msg_isReal dg hC hM x _ nrm hx hn)

/-- Three steps of real features along real weights give real features. -/
theorem hop3_isReal (x : FVec Ideal Nodes .f32) (src dst : IVec Edges 32) (nrm : FVec Ideal Edges .f32)
    (hx : IsReal x) (hn : IsReal nrm) : IsReal (hop3 (F := Ideal) dg ds hE hC hM hN x src dst nrm) :=
  hop_isReal dg ds hE hC hM hN _ src dst nrm
    (hop_isReal dg ds hE hC hM hN _ src dst nrm (hop_isReal dg ds hE hC hM hN x src dst nrm hx hn) hn) hn

end HopReal
/-! ## The perceptron, one entry at a time -/

/-- The f32 word of the normalisation's epsilon (the float nearest to 1e-5). -/
abbrev eps : EReal := Ideal.ofBits .f32 0x3727C5AC#32
/-- The f32 word of the number of rows, 100000. -/
abbrev rows : EReal := Ideal.ofBits .f32 0x47C35000#32

/-- The word `0x47C35000` is the real number 100000. -/
theorem rows_eq : rows = ((100000 : ℝ) : EReal) := by
  simp [rows, Ideal.ofBits, Ideal.ieee, -EReal.coe_mul]; norm_num

/-- Hidden pre-activation of unit `k` on a feature row `x`: the row against row `k` of the first weight matrix, plus the
    unit's bias. -/
def hid (x : Fin 128 → EReal) (w1 : (⟨2, ![512, 128]⟩ : Shape).Idx → EReal) (b : EReal) (k : Fin 512) : EReal :=
  (∑ d : Fin 128, x d * w1 (ix2 k d)) + b

/-- Batch normalisation with the column's mean and variance, scale and shift, then the rectifier. -/
def act (h mean var γ β : EReal) : EReal := max ((h - mean) * Ideal.rsqrt (var + eps) * γ + β) 0

/-- Output `j` on an activation row `a`: the row against row `j` of the second weight matrix, plus the bias. -/
def outv (a : Fin 512 → EReal) (w2 : (⟨2, ![64, 512]⟩ : Shape).Idx → EReal) (b : EReal) (j : Fin 64) : EReal :=
  (∑ k : Fin 512, a k * w2 (ix2 j k)) + b

/-- Column mean of a column `h` of 100000 entries. -/
def meanOf (h : Fin 100000 → EReal) : EReal := Ideal.div (∑ r, h r) rows
/-- Column variance as the mean of the squares minus the squared mean. -/
def varOnePass (h : Fin 100000 → EReal) : EReal := Ideal.div (∑ r, h r * h r) rows - meanOf h * meanOf h
/-- Column variance as the mean of the squared deviations from the mean. -/
def varTwoPass (h : Fin 100000 → EReal) : EReal := Ideal.div (∑ r, (h r - meanOf h) * (h r - meanOf h)) rows

/-- The whole perceptron at row `r`, output `j`, given the propagated features and a choice `var` of the variance. -/
def result (var : (Fin 100000 → EReal) → EReal) (ft : Nodes.Idx → EReal) (w1 : (⟨2, ![512, 128]⟩ : Shape).Idx → EReal)
    (b1 γ β : Fin 512 → EReal) (w2 : (⟨2, ![64, 512]⟩ : Shape).Idx → EReal) (b2 : Fin 64 → EReal)
    (r : Fin 100000) (j : Fin 64) : EReal :=
  outv (fun k => act (hid (fun d => ft (ix2 r d)) w1 (b1 k) k)
      (meanOf fun r' => hid (fun d => ft (ix2 r' d)) w1 (b1 k) k)
      (var fun r' => hid (fun d => ft (ix2 r' d)) w1 (b1 k) k) (γ k) (β k)) w2 (b2 j) j

/-! ## The two variances agree on a column of reals -/

/-- On a column of reals the two variances are one number. -/
theorem varOnePass_eq_varTwoPass (h : Fin 100000 → EReal) (hh : IsReal h) : varOnePass h = varTwoPass h := by
  choose x hx using hh
  have hfun : h = fun r => ((x r : ℝ) : EReal) := funext hx
  subst hfun
  have hN : (100000 : ℝ) ≠ 0 := by norm_num
  have hm : meanOf (fun r => ((x r : ℝ) : EReal)) = (((∑ r, x r) * (1 / 100000) : ℝ) : EReal) := by
    unfold meanOf; rw [rows_eq, Ideal.div_coe hN, coe_sum, ← EReal.coe_mul]
  unfold varOnePass varTwoPass
  rw [hm, rows_eq, Ideal.div_coe hN, Ideal.div_coe hN]
  simp only [← EReal.coe_mul, ← EReal.coe_sub, coe_sum]
  rw [real_var 100000 x 100000 (by norm_num) hN]

end Cert.GraphMlp

end
-- ==== Proof.KHost.lean ====
/-
  What the host operations between the kernel regions leave in the buffers the regions stage, for any contents
  `W` they start from.

  The first stretch propagates the features three times (`ftOf`: the specification's `hop3` at this program's
  dimension records) and views the four bias and scale vectors as one-row matrices; it writes none of the weight
  matrices.  The second stretch divides the two accumulated column sums by the number of rows and subtracts the
  squared mean from the mean of the squares; it writes nothing else the second region reads.
-/
import proofs.«110060_j49778670960917_1_alg».proof.Proof.Gen.KernelIdeal.Frame
import proofs.«110060_j49778670960917_1_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen

variable {F : FTy → Type} [FloatOps F]

/-- Three propagation steps at this program's gather and scatter records. -/
abbrev ftOf (a0 : FVec F S100000x128 .f32) (a1 a2 : IVec S1600000 32) (a3 : FVec F S1600000 .f32) : FVec F S100000x128 .f32 :=
  Cert.GraphMlp.hop3 gather_S100000x128_S1600000x1_S1600000x128_1_0_n_n_0_1_1128 scatter_S100000x128_S1600000x1_S1600000x128_1_0_0_1
    Facts₀.bcast_S_S1600000 Facts₀.bcast_S1600000_S1600000x1_0 Facts₀.bcast_S1600000x1_S1600000x128_0_1 Facts₀.bcast_S_S100000x128 a0 a1 a2 a3

variable (W : Valuation τ sig (Elt F))

/-! ## The first stretch -/

/-- The propagated features. -/
theorem first_ft :
    (StableHlo.after (hostOps0 (F := F)) W (Proc.devRef .tc main_v38) : S100000x128.Idx → F .f32)
      = ftOf (W (Proc.devRef .tc main_arg0)) (W (Proc.devRef .tc main_arg1)) (W (Proc.devRef .tc main_arg2)) (W (Proc.devRef .tc main_arg3)) := by
  dsimp only [hostOps0]
  after_results_simp
  rfl

/-- The first bias as a one-row matrix. -/
theorem first_b1 (k : Fin 512) :
    (StableHlo.after (hostOps0 (F := F)) W (Proc.devRef .tc main_v39) : S1x512.Idx → F .f32) (ix2 (0 : Fin 1) k)
      = (W (Proc.devRef .tc main_arg5) : S512.Idx → F .f32) (ix1 k) := by
  have e : (StableHlo.after (hostOps0 (F := F)) W (Proc.devRef .tc main_v39) : S1x512.Idx → F .f32)
      = shapeCast S1x512 (W (Proc.devRef .tc main_arg5) : S512.Idx → F .f32) shapeCasts_S512_S1x512 := by
    dsimp only [hostOps0]; after_results; rfl
  rw [e]; exact shapeCast_a_1a_apply _ _ 0 k

/-- The scale as a one-row matrix. -/
theorem first_gamma (k : Fin 512) :
    (StableHlo.after (hostOps0 (F := F)) W (Proc.devRef .tc main_v40) : S1x512.Idx → F .f32) (ix2 (0 : Fin 1) k)
      = (W (Proc.devRef .tc main_arg6) : S512.Idx → F .f32) (ix1 k) := by
  have e : (StableHlo.after (hostOps0 (F := F)) W (Proc.devRef .tc main_v40) : S1x512.Idx → F .f32)
      = shapeCast S1x512 (W (Proc.devRef .tc main_arg6) : S512.Idx → F .f32) shapeCasts_S512_S1x512 := by
    dsimp only [hostOps0]; after_results; rfl
  rw [e]; exact shapeCast_a_1a_apply _ _ 0 k

/-- The shift as a one-row matrix. -/
theorem first_beta (k : Fin 512) :
    (StableHlo.after (hostOps0 (F := F)) W (Proc.devRef .tc main_v41) : S1x512.Idx → F .f32) (ix2 (0 : Fin 1) k)
      = (W (Proc.devRef .tc main_arg7) : S512.Idx → F .f32) (ix1 k) := by
  have e : (StableHlo.after (hostOps0 (F := F)) W (Proc.devRef .tc main_v41) : S1x512.Idx → F .f32)
      = shapeCast S1x512 (W (Proc.devRef .tc main_arg7) : S512.Idx → F .f32) shapeCasts_S512_S1x512 := by
    dsimp only [hostOps0]; after_results; rfl
  rw [e]; exact shapeCast_a_1a_apply _ _ 0 k

/-- The second bias as a one-row matrix. -/
theorem first_b2 (j : Fin 64) :
    (StableHlo.after (hostOps0 (F := F)) W (Proc.devRef .tc main_v42) : S1x64.Idx → F .f32) (ix2 (0 : Fin 1) j)
      = (W (Proc.devRef .tc main_arg9) : S64.Idx → F .f32) (ix1 j) := by
  have e : (StableHlo.after (hostOps0 (F := F)) W (Proc.devRef .tc main_v42) : S1x64.Idx → F .f32)
      = shapeCast S1x64 (W (Proc.devRef .tc main_arg9) : S64.Idx → F .f32) shapeCasts_S64_S1x64 := by
    dsimp only [hostOps0]; after_results; rfl
  rw [e]; exact shapeCast_a_1a_apply _ _ 0 j

/-- The first weight matrix is not written. -/
theorem first_w1 : StableHlo.after (hostOps0 (F := F)) W (Proc.devRef .tc main_arg4) = W (Proc.devRef .tc main_arg4) :=
  StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The second weight matrix is not written. -/
theorem first_w2 : StableHlo.after (hostOps0 (F := F)) W (Proc.devRef .tc main_arg8) = W (Proc.devRef .tc main_arg8) :=
  StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The second stretch -/

/-- The column mean: the accumulated sum over the number of rows. -/
theorem second_mean :
    (StableHlo.after (hostOps1 (F := F)) W (Proc.devRef .tc main_v45) : S1x512.Idx → F .f32)
      = Host.divf (W (Proc.devRef .tc main_v43_0) : S1x512.Idx → F .f32)
          (broadcastInDim S1x512 ![] Facts₀.bcast_S_S1x512 (constant S_ .f32 0x47C35000#32)) := by
  dsimp only [hostOps1]; after_results

/-- The column variance: the mean of the squares minus the squared mean. -/
theorem second_var :
    (StableHlo.after (hostOps1 (F := F)) W (Proc.devRef .tc main_v49) : S1x512.Idx → F .f32)
      = subf (Host.divf (W (Proc.devRef .tc main_v43_1) : S1x512.Idx → F .f32)
            (broadcastInDim S1x512 ![] Facts₀.bcast_S_S1x512 (constant S_ .f32 0x47C35000#32)))
          (mulf (Host.divf (W (Proc.devRef .tc main_v43_0) : S1x512.Idx → F .f32)
              (broadcastInDim S1x512 ![] Facts₀.bcast_S_S1x512 (constant S_ .f32 0x47C35000#32)))
            (Host.divf (W (Proc.devRef .tc main_v43_0) : S1x512.Idx → F .f32)
              (broadcastInDim S1x512 ![] Facts₀.bcast_S_S1x512 (constant S_ .f32 0x47C35000#32)))) := by
  dsimp only [hostOps1]; after_results

/-- The second stretch writes none of the other buffers the second region stages. -/
theorem second_ft : StableHlo.after (hostOps1 (F := F)) W (Proc.devRef .tc main_v38) = W (Proc.devRef .tc main_v38) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem second_w1 : StableHlo.after (hostOps1 (F := F)) W (Proc.devRef .tc main_arg4) = W (Proc.devRef .tc main_arg4) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem second_b1 : StableHlo.after (hostOps1 (F := F)) W (Proc.devRef .tc main_v39) = W (Proc.devRef .tc main_v39) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem second_gamma : StableHlo.after (hostOps1 (F := F)) W (Proc.devRef .tc main_v40) = W (Proc.devRef .tc main_v40) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem second_beta : StableHlo.after (hostOps1 (F := F)) W (Proc.devRef .tc main_v41) = W (Proc.devRef .tc main_v41) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem second_w2 : StableHlo.after (hostOps1 (F := F)) W (Proc.devRef .tc main_arg8) = W (Proc.devRef .tc main_arg8) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem second_b2 : StableHlo.after (hostOps1 (F := F)) W (Proc.devRef .tc main_v42) = W (Proc.devRef .tc main_v42) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostValue

end
-- ==== Proof.KReads.lean ====
/-
  The buffers the second region stages, walked back through the segment boundaries to the launch memory.

  Between the launch and the second region's entry a buffer is touched at most once: by the first stretch of host
  operations (the propagated features, the four one-row views), by the first region's write-backs (the two column
  sums) or by the second stretch (mean and variance).  An input window's array leaves a region as it entered it.
  So each read below is a short chain of "not written here" steps ending in the one operation that did write it.
-/
import proofs.«110060_j49778670960917_1_alg».proof.Proof.KHost

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## At the first region's entry -/

theorem entry0_ft : (V1 m ρ c main_v38 : S100000x128.Idx → F .f32)
    = ftOf (m ((c : Thread nD τ).loc main_arg0)) (m ((c : Thread nD τ).loc main_arg1)) (m ((c : Thread nD τ).loc main_arg2)) (m ((c : Thread nD τ).loc main_arg3)) :=
  first_ft (W0 m ρ c)

theorem entry0_w1 : V1 m ρ c main_arg4 = m ((c : Thread nD τ).loc main_arg4) := first_w1 (W0 m ρ c)

theorem entry0_b1 (k : Fin 512) : (V1 m ρ c main_v39 : S1x512.Idx → F .f32) (ix2 (0 : Fin 1) k)
    = (m ((c : Thread nD τ).loc main_arg5) : S512.Idx → F .f32) (ix1 k) := first_b1 (W0 m ρ c) k

/-! ## At the first region's exit -/

theorem exit0_ft : W2 m ρ c (Proc.devRef .tc main_v38) = V1 m ρ c main_v38 :=
  (W2_arr m ρ c 0).trans (((dat0 (V1 m ρ) c).arrAt_in 0 rfl _).trans (A_eq0 (V1 m ρ) c 0))
theorem exit0_w1 : W2 m ρ c (Proc.devRef .tc main_arg4) = V1 m ρ c main_arg4 :=
  (W2_arr m ρ c 1).trans (((dat0 (V1 m ρ) c).arrAt_in 1 rfl _).trans (A_eq0 (V1 m ρ) c 1))
theorem exit0_b1 : W2 m ρ c (Proc.devRef .tc main_v39) = V1 m ρ c main_v39 :=
  (W2_arr m ρ c 2).trans (((dat0 (V1 m ρ) c).arrAt_in 2 rfl _).trans (A_eq0 (V1 m ρ) c 2))
theorem exit0_sum : W2 m ρ c (Proc.devRef .tc main_v43_0) = (dat0 (V1 m ρ) c).arrAt 3 cfg0.N := W2_arr m ρ c 3
theorem exit0_sumsq : W2 m ρ c (Proc.devRef .tc main_v43_1) = (dat0 (V1 m ρ) c).arrAt 4 cfg0.N := W2_arr m ρ c 4
theorem exit0_gamma : W2 m ρ c (Proc.devRef .tc main_v40) = V1 m ρ c main_v40 := W2_of_ne m ρ c main_v40 (by decide)
theorem exit0_beta : W2 m ρ c (Proc.devRef .tc main_v41) = V1 m ρ c main_v41 := W2_of_ne m ρ c main_v41 (by decide)
theorem exit0_b2 : W2 m ρ c (Proc.devRef .tc main_v42) = V1 m ρ c main_v42 := W2_of_ne m ρ c main_v42 (by decide)
theorem exit0_w2 : W2 m ρ c (Proc.devRef .tc main_arg8) = V1 m ρ c main_arg8 := W2_of_ne m ρ c main_arg8 (by decide)

/-! ## At the second region's entry -/

theorem entry1_ft : (V3 m ρ c main_v38 : S100000x128.Idx → F .f32)
    = ftOf (m ((c : Thread nD τ).loc main_arg0)) (m ((c : Thread nD τ).loc main_arg1)) (m ((c : Thread nD τ).loc main_arg2)) (m ((c : Thread nD τ).loc main_arg3)) :=
  (second_ft (W2 m ρ c)).trans ((exit0_ft m ρ c).trans (entry0_ft m ρ c))

theorem entry1_w1 : V3 m ρ c main_arg4 = m ((c : Thread nD τ).loc main_arg4) :=
  (second_w1 (W2 m ρ c)).trans ((exit0_w1 m ρ c).trans (entry0_w1 m ρ c))

theorem entry1_b1 (k : Fin 512) : (V3 m ρ c main_v39 : S1x512.Idx → F .f32) (ix2 (0 : Fin 1) k)
    = (m ((c : Thread nD τ).loc main_arg5) : S512.Idx → F .f32) (ix1 k) :=
  (congrFun ((second_b1 (W2 m ρ c)).trans (exit0_b1 m ρ c)) _).trans (entry0_b1 m ρ c k)

theorem entry1_gamma (k : Fin 512) : (V3 m ρ c main_v40 : S1x512.Idx → F .f32) (ix2 (0 : Fin 1) k)
    = (m ((c : Thread nD τ).loc main_arg6) : S512.Idx → F .f32) (ix1 k) :=
  (congrFun ((second_gamma (W2 m ρ c)).trans (exit0_gamma m ρ c)) _).trans (first_gamma (W0 m ρ c) k)

theorem entry1_beta (k : Fin 512) : (V3 m ρ c main_v41 : S1x512.Idx → F .f32) (ix2 (0 : Fin 1) k)
    = (m ((c : Thread nD τ).loc main_arg7) : S512.Idx → F .f32) (ix1 k) :=
  (congrFun ((second_beta (W2 m ρ c)).trans (exit0_beta m ρ c)) _).trans (first_beta (W0 m ρ c) k)

theorem entry1_b2 (j : Fin 64) : (V3 m ρ c main_v42 : S1x64.Idx → F .f32) (ix2 (0 : Fin 1) j)
    = (m ((c : Thread nD τ).loc main_arg9) : S64.Idx → F .f32) (ix1 j) :=
  (congrFun ((second_b2 (W2 m ρ c)).trans (exit0_b2 m ρ c)) _).trans (first_b2 (W0 m ρ c) j)

theorem entry1_w2 : V3 m ρ c main_arg8 = m ((c : Thread nD τ).loc main_arg8) :=
  (second_w2 (W2 m ρ c)).trans ((exit0_w2 m ρ c).trans (first_w2 (W0 m ρ c)))

/-- The mean the second region reads: the first region's column sum over the number of rows. -/
theorem entry1_mean (k : Fin 512) : (V3 m ρ c main_v45 : S1x512.Idx → F .f32) (ix2 (0 : Fin 1) k)
    = FloatOps.hostDivf (((dat0 (V1 m ρ) c).arrAt 3 cfg0.N : S1x512.Idx → F .f32) (ix2 (0 : Fin 1) k)) (FloatOps.ofBits .f32 0x47C35000#32) := by
  rw [show (V3 m ρ c main_v45 : S1x512.Idx → F .f32) = _ from second_mean (W2 m ρ c), exit0_sum m ρ c]
  rfl

/-- The variance the second region reads: the column sum of squares over the number of rows, minus the squared mean. -/
theorem entry1_var (k : Fin 512) : (V3 m ρ c main_v49 : S1x512.Idx → F .f32) (ix2 (0 : Fin 1) k)
    = FloatOps.subf
        (FloatOps.hostDivf (((dat0 (V1 m ρ) c).arrAt 4 cfg0.N : S1x512.Idx → F .f32) (ix2 (0 : Fin 1) k)) (FloatOps.ofBits .f32 0x47C35000#32))
        (FloatOps.mulf
          (FloatOps.hostDivf (((dat0 (V1 m ρ) c).arrAt 3 cfg0.N : S1x512.Idx → F .f32) (ix2 (0 : Fin 1) k)) (FloatOps.ofBits .f32 0x47C35000#32))
          (FloatOps.hostDivf (((dat0 (V1 m ρ) c).arrAt 3 cfg0.N : S1x512.Idx → F .f32) (ix2 (0 : Fin 1) k)) (FloatOps.ofBits .f32 0x47C35000#32))) := by
  rw [show (V3 m ρ c main_v49 : S1x512.Idx → F .f32) = _ from second_var (W2 m ρ c), exit0_sum m ρ c, exit0_sumsq m ρ c]
  rfl

end Cert.KernelIdeal.HostValue

end
-- ==== Proof.MlpBlock.lean ====
/-
  One block of the second kernel, entry by entry.

  The kernel's body takes a block of 5000 feature rows, the two weight matrices, the two biases and the four
  per-column rows (mean, variance, scale, shift), and leaves a block of 5000 output rows.  Read at the extended
  reals, where a change of float format is the identity and a matrix product is the exact sum of products, the
  entry at row p, output j is the second layer's output `outv` on the rectified, normalised hidden row of p:

      (∑ k, max ((((∑ d, x p d * W1 k d) + b1 k) - mean k) * rsqrt (var k + eps) * γ k + β k) 0 * W2 j k) + b2 j.

  The proof reads the body's one pure term index by index: the two products through the plain rows-by-columns
  dimension numbers, each transposed weight matrix at the swapped index, each one-row array laid along the 5000
  rows at its column's entry, and the pointwise operations as the extended reals' own.
-/
import proofs.«110060_j49778670960917_1_alg».proof.Proof.Spec
import proofs.«110060_j49778670960917_1_alg».proof.Proof.Gen.KernelIdeal.Frame
import Idealize.ShloMosaic.Lib.ValueIdx
import Idealize.ShloMosaic.Lib.Pipeline.Value
import Idealize.ShloMosaic.Lib.StackMember
import Idealize.ShloMosaic.PureOps.Ideal.Laws

noncomputable section

open scoped BigOperators

namespace Cert.KernelIdeal.MlpBlock

open Cert.KernelIdeal Cert.KernelIdeal.Gen Idealize.ShloMosaic Idealize.ShloMosaic.ValueIdx

/-! ## The two products -/

/-- The first product's dimension numbers are the plain rows-by-columns ones. -/
theorem firstDims_plain : dot_S5000x128_S128x512_S5000x512_1_0_0_1_n_n = DotDims.plain 5000 128 512 := rfl
/-- So are the second product's. -/
theorem secondDims_plain : dot_S5000x512_S512x64_S5000x64_1_0_0_1_n_n = DotDims.plain 5000 512 64 := rfl

/-- The first product, accumulated into zero, at row p and column k: the sum over the 128 features. -/
theorem firstProduct_at (A : FVec Ideal S5000x128 .bf16) (B : FVec Ideal S128x512 .bf16) (p : Fin 5000) (k : Fin 512) :
    matmul dot_S5000x128_S128x512_S5000x512_1_0_0_1_n_n none A B (constant S5000x512 .f32 0x00000000#32) (ix2 p k)
      = ∑ d : Fin 128, A (ix2 p d) * B (ix2 d k) := by
  rw [matmul_zero_eq_dotGeneral, firstDims_plain]
  exact StackMember.dotGeneral_plain_apply none A B p k

/-- The second product, accumulated into zero, at row p and column j: the sum over the 512 hidden units. -/
theorem secondProduct_at (A : FVec Ideal S5000x512 .bf16) (B : FVec Ideal S512x64 .bf16) (p : Fin 5000) (j : Fin 64) :
    matmul dot_S5000x512_S512x64_S5000x64_1_0_0_1_n_n none A B (constant S5000x64 .f32 0x00000000#32) (ix2 p j)
      = ∑ k : Fin 512, A (ix2 p k) * B (ix2 k j) := by
  rw [matmul_zero_eq_dotGeneral, secondDims_plain]
  exact StackMember.dotGeneral_plain_apply none A B p j

/-! ## Rows laid along the block, and the transposed weights -/

/-- A one-row array of 512 entries laid along 5000 rows reads, anywhere in column k, the row's entry k. -/
theorem row512_at {α : Type} (v : S1x512.Idx → α) (p : Fin 5000) (k : Fin 512) :
    broadcastTo S5000x512 v Facts₀.broadcasts_S1x512_S5000x512 (ix2 p k) = v (ix2 (0 : Fin 1) k) := by
  refine broadcastTo_apply v _ (ix2 p k) (ix2 (0 : Fin 1) k) ?_
  intro a
  match a with
  | ⟨0, _⟩ => rfl
  | ⟨1, _⟩ => rfl

/-- A one-row array of 64 entries laid along 5000 rows reads, anywhere in column j, the row's entry j. -/
theorem row64_at {α : Type} (v : S1x64.Idx → α) (p : Fin 5000) (j : Fin 64) :
    broadcastTo S5000x64 v Facts₀.broadcasts_S1x64_S5000x64 (ix2 p j) = v (ix2 (0 : Fin 1) j) := by
  refine broadcastTo_apply v _ (ix2 p j) (ix2 (0 : Fin 1) j) ?_
  intro a
  match a with
  | ⟨0, _⟩ => rfl
  | ⟨1, _⟩ => rfl

/-- The transposed first weight matrix at (d, k) is the matrix at (k, d). -/
theorem firstWeightsT_at {α : Type} (v : S512x128.Idx → α) (d : Fin 128) (k : Fin 512) :
    transpose S128x512 [1, 0] v Facts₀.transposes_S512x128_p1_0_S128x512 (ix2 d k) = v (ix2 k d) := by
  refine transpose_apply [1, 0] v _ (ix2 d k) (ix2 k d) ?_
  intro b
  match b with
  | ⟨0, _⟩ => rfl
  | ⟨1, _⟩ => rfl

/-- The transposed second weight matrix at (k, j) is the matrix at (j, k). -/
theorem secondWeightsT_at {α : Type} (v : S64x512.Idx → α) (k : Fin 512) (j : Fin 64) :
    transpose S512x64 [1, 0] v Facts₀.transposes_S64x512_p1_0_S512x64 (ix2 k j) = v (ix2 j k) := by
  refine transpose_apply [1, 0] v _ (ix2 k j) (ix2 j k) ?_
  intro b
  match b with
  | ⟨0, _⟩ => rfl
  | ⟨1, _⟩ => rfl

/-- The reciprocal square root of an array, at an index, is that of the entry. -/
theorem rsqrt_at {s : Shape} {φ : FTy} (v : FVec Ideal s φ) (i : s.Idx) : rsqrt v i = Ideal.rsqrt (v i) := rfl

/-! ## The hidden layer, then the whole body -/

/-- The hidden layer's product and bias at row p, unit k: the feature row against row k of the first weight matrix,
    plus the bias. -/
theorem hidden_at (v0 : FVec Ideal S5000x128 .f32) (v3 : FVec Ideal S512x128 .f32) (v7 : FVec Ideal S1x512 .f32)
    (p : Fin 5000) (k : Fin 512) :
    addf (F := Ideal) (matmul dot_S5000x128_S128x512_S5000x512_1_0_0_1_n_n none
          (truncf .bf16 (shapeCast S5000x128 v0 Facts₀.shapeCasts_S5000x128_S5000x128) Facts₀.bitsLt_bf16_f32)
          (transpose S128x512 [1, 0] (truncf .bf16 v3 Facts₀.bitsLt_bf16_f32) Facts₀.transposes_S512x128_p1_0_S128x512)
          (constant S5000x512 .f32 0x00000000#32))
        (broadcastTo S5000x512 (shapeCast S1x512 v7 Facts₀.shapeCasts_S1x512_S1x512) Facts₀.broadcasts_S1x512_S5000x512) (ix2 p k)
      = (∑ d : Fin 128, v0 (ix2 p d) * v3 (ix2 k d)) + v7 (ix2 (0 : Fin 1) k) := by
  rw [addf_apply, firstProduct_at, row512_at, shapeCast_self, shapeCast_self]
  refine congrArg (· + _) (Finset.sum_congr rfl fun d _ => ?_)
  rw [firstWeightsT_at]
  rfl

set_option maxHeartbeats 400000 in
/-- The second product of the body at row p, output j: the rectified, normalised hidden row of p against row j of
    the second weight matrix.  The row `vMean` is the one subtracted, the row `vVar` the one under the reciprocal
    square root. -/
theorem secondLayer_at (v0 : FVec Ideal S5000x128 .f32) (v3 : FVec Ideal S512x128 .f32)
    (v7 vVar vMean v22 v26 : FVec Ideal S1x512 .f32) (v33 : FVec Ideal S64x512 .f32) (p : Fin 5000) (j : Fin 64) :
    k1_pay2 (F := Ideal) v0 v3 v7 vVar vMean v22 v26 v33 (ix2 p j)
      = ∑ k : Fin 512, max ((((∑ d : Fin 128, v0 (ix2 p d) * v3 (ix2 k d)) + v7 (ix2 (0 : Fin 1) k)) - vMean (ix2 (0 : Fin 1) k))
            * Ideal.rsqrt (vVar (ix2 (0 : Fin 1) k) + Ideal.ofBits .f32 0x3727C5AC#32) * v22 (ix2 (0 : Fin 1) k)
            + v26 (ix2 (0 : Fin 1) k)) 0
          * v33 (ix2 j k) := by
  unfold k1_pay2
  dsimp only
  rw [secondProduct_at]
  refine Finset.sum_congr rfl fun k _ => ?_
  rw [secondWeightsT_at, truncf_apply, truncf_apply, maximumf_apply, addf_apply, mulf_apply, mulf_apply, subf_apply, hidden_at]
  simp only [row512_at, addf_apply, shapeCast_self, broadcast_apply, rsqrt_at, Ideal.ofBits_def, Ideal.ofBits_zero_f32]

/-- The body's last step at row p, output j: the second product there plus the output bias. -/
theorem outputBias_at (v36 : FVec Ideal S5000x64 .f32) (v37 : FVec Ideal S1x64 .f32) (p : Fin 5000) (j : Fin 64) :
    k1_pay1 (F := Ideal) v36 v37 (ix2 p j) = v36 (ix2 p j) + v37 (ix2 (0 : Fin 1) j) := by
  unfold k1_pay1
  rw [addf_apply, row64_at, shapeCast_self]

/-- Offsets written `![0, 0]` are zero on both axes. -/
theorem zeroOffsets : (![0, 0] : Fin 2 → Nat) = fun _ => 0 := funext fun a => by fin_cases a <;> rfl

set_option maxHeartbeats 400000 in
/-- THE BLOCK: what the body leaves in the output block, at row p and output j, is the second layer's output on the
    rectified, normalised hidden row of p — with `x3` the means and `x4` the variances. -/
theorem block_out (x0 : Vec Ideal S5000x128 .f32) (x1 : Vec Ideal S512x128 .f32) (x2 x3 x4 x5 x6 : Vec Ideal S1x512 .f32)
    (x7 : Vec Ideal S64x512 .f32) (x8 : Vec Ideal S1x64 .f32) (p : Fin 5000) (j : Fin 64) :
    Gen.out1_9 (F := Ideal) x0 x1 x2 x3 x4 x5 x6 x7 x8 (ix2 p j)
      = Cert.GraphMlp.outv (fun k => Cert.GraphMlp.act
            (Cert.GraphMlp.hid (fun d => x0 (ix2 p d)) x1 (x2 (ix2 (0 : Fin 1) k)) k)
            (x3 (ix2 (0 : Fin 1) k)) (x4 (ix2 (0 : Fin 1) k)) (x5 (ix2 (0 : Fin 1) k)) (x6 (ix2 (0 : Fin 1) k)))
          x7 (x8 (ix2 (0 : Fin 1) j)) j := by
  unfold Gen.out1_9
  rw [View.canon_unit_zero zeroOffsets]
  simp only [View.ld_unit_zero (S := S5000x128) zeroOffsets, View.ld_unit_zero (S := S512x128) zeroOffsets,
    View.ld_unit_zero (S := S1x512) zeroOffsets, View.ld_unit_zero (S := S64x512) zeroOffsets,
    View.ld_unit_zero (S := S1x64) zeroOffsets]
  rw [outputBias_at, secondLayer_at]
  rfl

end Cert.KernelIdeal.MlpBlock

end
-- ==== Proof.MlpArray.lean ====
/-
  From blocks to the array: what the second kernel's region leaves in its result, entry by entry.

  The region runs the body at 20 grid points.  At point `t` the feature window holds rows `5000 t … 5000 t + 4999` of the
  propagated features, every other input window holds its whole array (both weight matrices, both biases, the mean,
  variance, scale and shift rows), and the body's output block is written back to rows `5000 t … 5000 t + 4999` of
  the result.  By the block's entry-by-entry reading, what point `t` writes back is block `t` of ONE function of
  the arrays the region finds — at row `r`, output `j`, the second layer's output `outv` on the rectified, normalised
  hidden row of `r` — and the 20 blocks cover the 100000 rows (row `r` lies in the block of point `r / 5000`), so the
  result array ends holding that function.  The contents `V` the region finds are a parameter throughout.
-/
import proofs.«110060_j49778670960917_1_alg».proof.Proof.MlpBlock
import Idealize.ShloMosaic.Lib.Pipeline.Value

noncomputable section

open scoped BigOperators

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits -/

/-- The printed index maps, decided over the 20 grid points: the feature window and the output window sit at row-block
    `t`, column-block 0; every other window is its whole array. -/
theorem idx_facts : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Every row-block below 20 is some point's. -/
theorem idx_onto : ∀ q : Fin 20, ∃ t : Fin cfg1.N, t.val = q.val :=
  (by decide +kernel : ∀ q : Fin 20, ∃ t : Fin grid1.N, t.val = q.val)

/-- The feature window's block at point `t` holds rows `5000 t … 5000 t + 4999` of the propagated features. -/
theorem feat_blk (c : Dev nD) (t : Fin cfg1.N) (p : Fin 5000) (d : Fin 128) (r : Fin 100000) (hr : r.val = t.val * 5000 + p.val) :
    (iblk1 V c 0 t : S5000x128.Idx → EReal) (ix2 p d) = (V c main_v38 : S100000x128.Idx → EReal) (ix2 r d) := by
  obtain ⟨e0, e1, -⟩ := idx_facts t
  unfold iblk1
  show V c main_v38 (((cfg1.win 0).blk t).view.emb (ix2 p d)) = V c main_v38 (ix2 r d)
  refine congrArg (V c main_v38) (funext fun a => Fin.ext ?_)
  match a with
  | ⟨0, _⟩ => show win1_0.index t (0 : Fin 2) * 5000 + 1 * p.val = r.val; omega
  | ⟨1, _⟩ => show win1_0.index t (1 : Fin 2) * 128 + 1 * d.val = d.val; omega

/-! ## The input windows' blocks as parts of the arrays the region finds -/

/-- The first weight matrix's window is the whole matrix at every point. -/
theorem w1_blk (c : Dev nD) (t : Fin cfg1.N) : (iblk1 V c 1 t : S512x128.Idx → EReal) = V c main_arg4 := by
  obtain ⟨-, -, -, -, f1a, f1b, f2a, f2b, f3a, f3b, f4a, f4b, f5a, f5b, f6a, f6b, f7a, f7b, f8a, f8b⟩ := idx_facts t
  funext y
  unfold iblk1
  show V c main_arg4 (((cfg1.win 1).blk t).view.emb y) = V c main_arg4 y
  refine congrArg (V c main_arg4) (funext fun a => Fin.ext ?_)
  match a with
  | ⟨0, _⟩ => show win1_1.index t (0 : Fin 2) * 512 + 1 * (y 0).val = (y 0).val; omega
  | ⟨1, _⟩ => show win1_1.index t (1 : Fin 2) * 128 + 1 * (y 1).val = (y 1).val; omega

/-- The first bias row's window is the whole row at every point. -/
theorem b1_blk (c : Dev nD) (t : Fin cfg1.N) : (iblk1 V c 2 t : S1x512.Idx → EReal) = V c main_v39 := by
  obtain ⟨-, -, -, -, f1a, f1b, f2a, f2b, f3a, f3b, f4a, f4b, f5a, f5b, f6a, f6b, f7a, f7b, f8a, f8b⟩ := idx_facts t
  funext y
  unfold iblk1
  show V c main_v39 (((cfg1.win 2).blk t).view.emb y) = V c main_v39 y
  refine congrArg (V c main_v39) (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The mean row's window is the whole row at every point. -/
theorem mean_blk (c : Dev nD) (t : Fin cfg1.N) : (iblk1 V c 3 t : S1x512.Idx → EReal) = V c main_v45 := by
  obtain ⟨-, -, -, -, f1a, f1b, f2a, f2b, f3a, f3b, f4a, f4b, f5a, f5b, f6a, f6b, f7a, f7b, f8a, f8b⟩ := idx_facts t
  funext y
  unfold iblk1
  show V c main_v45 (((cfg1.win 3).blk t).view.emb y) = V c main_v45 y
  refine congrArg (V c main_v45) (funext fun a => Fin.ext ?_)
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- The variance row's window is the whole row at every point. -/
theorem var_blk (c : Dev nD) (t : Fin cfg1.N) : (iblk1 V c 4 t : S1x512.Idx → EReal) = V c main_v49 := by
  obtain ⟨-, -, -, -, f1a, f1b, f2a, f2b, f3a, f3b, f4a, f4b, f5a, f5b, f6a, f6b, f7a, f7b, f8a, f8b⟩ := idx_facts t
  funext y
  unfold iblk1
  show V c main_v49 (((cfg1.win 4).blk t).view.emb y) = V c main_v49 y
  refine congrArg (V c main_v49) (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- The scale row's window is the whole row at every point. -/
theorem scale_blk (c : Dev nD) (t : Fin cfg1.N) : (iblk1 V c 5 t : S1x512.Idx → EReal) = V c main_v40 := by
  obtain ⟨-, -, -, -, f1a, f1b, f2a, f2b, f3a, f3b, f4a, f4b, f5a, f5b, f6a, f6b, f7a, f7b, f8a, f8b⟩ := idx_facts t
  funext y
  unfold iblk1
  show V c main_v40 (((cfg1.win 5).blk t).view.emb y) = V c main_v40 y
  refine congrArg (V c main_v40) (funext fun a => Fin.ext ?_)
  match a with
  | ⟨0, _⟩ => show win1_5.index t (0 : Fin 2) * 1 + 1 * (y 0).val = (y 0).val; omega
  | ⟨1, _⟩ => show win1_5.index t (1 : Fin 2) * 512 + 1 * (y 1).val = (y 1).val; omega

/-- The shift row's window is the whole row at every point. -/
theorem shift_blk (c : Dev nD) (t : Fin cfg1.N) : (iblk1 V c 6 t : S1x512.Idx → EReal) = V c main_v41 := by
  obtain ⟨-, -, -, -, f1a, f1b, f2a, f2b, f3a, f3b, f4a, f4b, f5a, f5b, f6a, f6b, f7a, f7b, f8a, f8b⟩ := idx_facts t
  funext y
  unfold iblk1
  show V c main_v41 (((cfg1.win 6).blk t).view.emb y) = V c main_v41 y
  refine congrArg (V c main_v41) (funext fun a => Fin.ext ?_)
  match a with
  | ⟨0, _⟩ => show win1_6.index t (0 : Fin 2) * 1 + 1 * (y 0).val = (y 0).val; omega
  | ⟨1, _⟩ => show win1_6.index t (1 : Fin 2) * 512 + 1 * (y 1).val = (y 1).val; omega

/-- The second weight matrix's window is the whole matrix at every point. -/
theorem w2_blk (c : Dev nD) (t : Fin cfg1.N) : (iblk1 V c 7 t : S64x512.Idx → EReal) = V c main_arg8 := by
  obtain ⟨-, -, -, -, f1a, f1b, f2a, f2b, f3a, f3b, f4a, f4b, f5a, f5b, f6a, f6b, f7a, f7b, f8a, f8b⟩ := idx_facts t
  funext y
  unfold iblk1
  show V c main_arg8 (((cfg1.win 7).blk t).view.emb y) = V c main_arg8 y
  refine congrArg (V c main_arg8) (funext fun a => Fin.ext ?_)
  match a with
  | ⟨0, _⟩ => show win1_7.index t (0 : Fin 2) * 64 + 1 * (y 0).val = (y 0).val; omega
  | ⟨1, _⟩ => show win1_7.index t (1 : Fin 2) * 512 + 1 * (y 1).val = (y 1).val; omega

/-- The second bias row's window is the whole row at every point. -/
theorem b2_blk (c : Dev nD) (t : Fin cfg1.N) : (iblk1 V c 8 t : S1x64.Idx → EReal) = V c main_v42 := by
  obtain ⟨-, -, -, -, f1a, f1b, f2a, f2b, f3a, f3b, f4a, f4b, f5a, f5b, f6a, f6b, f7a, f7b, f8a, f8b⟩ := idx_facts t
  funext y
  unfold iblk1
  show V c main_v42 (((cfg1.win 8).blk t).view.emb y) = V c main_v42 y
  refine congrArg (V c main_v42) (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega

/-! ## The result function, and what one point writes back -/

/-- The array the region leaves in its result, as ONE function of the arrays it finds: at row `r`, output `j`, the second
    layer's output on the rectified, normalised hidden row of `r`. -/
def arrOut (c : Dev nD) : S100000x64.Idx → EReal := fun i =>
  Cert.GraphMlp.outv (fun k => Cert.GraphMlp.act
      (Cert.GraphMlp.hid (fun d => (V c main_v38 : S100000x128.Idx → EReal) (ix2 (i 0 : Fin 100000) d)) (V c main_arg4)
        ((V c main_v39 : S1x512.Idx → EReal) (ix2 (0 : Fin 1) k)) k)
      ((V c main_v45 : S1x512.Idx → EReal) (ix2 (0 : Fin 1) k)) ((V c main_v49 : S1x512.Idx → EReal) (ix2 (0 : Fin 1) k))
      ((V c main_v40 : S1x512.Idx → EReal) (ix2 (0 : Fin 1) k)) ((V c main_v41 : S1x512.Idx → EReal) (ix2 (0 : Fin 1) k)))
    (V c main_arg8) ((V c main_v42 : S1x64.Idx → EReal) (ix2 (0 : Fin 1) (i 1 : Fin 64))) (i 1 : Fin 64)

/-- The block's entry with the feature row named: whatever row of numbers the block's row `p` is. -/
theorem block_out_of (x0 : Vec Ideal S5000x128 .f32) (x1 : Vec Ideal S512x128 .f32) (x2 x3 x4 x5 x6 : Vec Ideal S1x512 .f32)
    (x7 : Vec Ideal S64x512 .f32) (x8 : Vec Ideal S1x64 .f32) (p : Fin 5000) (j : Fin 64) (ft : Fin 128 → EReal)
    (h0 : ∀ d, x0 (ix2 p d) = ft d) :
    Gen.out1_9 (F := Ideal) x0 x1 x2 x3 x4 x5 x6 x7 x8 (ix2 p j)
      = Cert.GraphMlp.outv (fun k => Cert.GraphMlp.act
            (Cert.GraphMlp.hid ft x1 (x2 (ix2 (0 : Fin 1) k)) k)
            (x3 (ix2 (0 : Fin 1) k)) (x4 (ix2 (0 : Fin 1) k)) (x5 (ix2 (0 : Fin 1) k)) (x6 (ix2 (0 : Fin 1) k)))
          x7 (x8 (ix2 (0 : Fin 1) j)) j := by
  rw [MlpBlock.block_out]
  have e : (fun d => x0 (ix2 p d)) = ft := funext h0
  rw [e]

/-- What point `t`'s body leaves at row `p`, output `j` of its block is the result function at row `5000 t + p`. -/
theorem block_at (c : Dev nD) (t : Fin cfg1.N) (p : Fin 5000) (j : Fin 64) (i : S100000x64.Idx)
    (h0 : (i 0).val = t.val * 5000 + p.val) (h1 : (i 1).val = j.val) :
    Gen.out1_9 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (ix2 p j) = arrOut V c i := by
  have hj : (i 1 : Fin 64) = j := Fin.ext h1
  refine (block_out_of (iblk1 V c 0 t) (iblk1 V c 1 t) (iblk1 V c 2 t) (iblk1 V c 3 t) (iblk1 V c 4 t) (iblk1 V c 5 t)
    (iblk1 V c 6 t) (iblk1 V c 7 t) (iblk1 V c 8 t) p j
    (fun d => (V c main_v38 : S100000x128.Idx → EReal) (ix2 (i 0 : Fin 100000) d))
    (fun d => feat_blk V c t p d (i 0) h0)).trans ?_
  rw [w1_blk V c t, b1_blk V c t, mean_blk V c t, var_blk V c t, scale_blk V c t, shift_blk V c t, w2_blk V c t, b2_blk V c t]
  unfold arrOut
  rw [hj]

/-! ## The blocks cover the array -/

/-- What point `t`'s body leaves in its block, entry by entry, is the result function read through the block. -/
theorem flushed_at (c : Dev nD) (t : Fin cfg1.N) (y : S5000x64.Idx) :
    Gen.out1_9 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) y = arrOut V c (((cfg1.win 9).blk t).view.emb y) := by
  obtain ⟨-, -, e2, e3, -⟩ := idx_facts t
  have hp : (y 0).val < 5000 := (y 0).isLt
  have hq : (y 1).val < 64 := (y 1).isLt
  have h := block_at V c t (y 0) (y 1) (((cfg1.win 9).blk t).view.emb y)
    (by show win1_9.index t (0 : Fin 2) * 5000 + 1 * (y 0).val = t.val * 5000 + (y 0).val; omega)
    (by show win1_9.index t (1 : Fin 2) * 64 + 1 * (y 1).val = (y 1).val; omega)
  exact (congrArg (Gen.out1_9 (F := Ideal) (iblk1 V c 0 t) (iblk1 V c 1 t) (iblk1 V c 2 t) (iblk1 V c 3 t) (iblk1 V c 4 t)
    (iblk1 V c 5 t) (iblk1 V c 6 t) (iblk1 V c 7 t) (iblk1 V c 8 t)) (eq_ix2 y)).trans h

/-- WHAT POINT `t` WRITES BACK is block `t` of the result function. -/
theorem flushed_eq (c : Dev nD) (t : Fin cfg1.N) :
    (dat1 (F := Ideal) V c).flushed 9 t = ((cfg1.win 9).blk t).view.read (Elt Ideal) (arrOut V c) := by
  show (cfg1.win 9).cut (grid1.coords t) ((dat1 (F := Ideal) V c).after 9 t) = _
  rw [after1_9]
  funext y
  exact flushed_at V c t y

/-- An index of the result array is in point `t`'s block iff each coordinate is in the block's range on its axis. -/
theorem mem_blk (t : Fin cfg1.N) (i : S100000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v50).slice (win1_9.rect t)).set ↔ _
  rw [View.set_slice_whole, Rect.mem_set_unit]
  exact Iff.rfl

/-- The 20 blocks of 5000 rows cover the 100000 rows: row `r` is in the block of point `r / 5000`. -/
theorem cover (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, e2, e3, -⟩ := idx_facts t
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- THE ARRAY after the region: the result function of the arrays the region found. -/
theorem arr_eq (c : Dev nD) : (dat1 (F := Ideal) V c).arrAt 9 cfg1.N = arrOut V c :=
  (dat1 (F := Ideal) V c).arrAt_eq_of_cover 9 (arrOut V c) (fun t _ => flushed_eq V c t) (cover)

/-- The same, entry by entry: row `r`, output `j` of the result array. -/
theorem arr_out (c : Dev nD) (r : Fin 100000) (j : Fin 64) :
    ((dat1 (F := Ideal) V c).arrAt 9 cfg1.N : S100000x64.Idx → EReal) (ix2 r j)
      = Cert.GraphMlp.outv (fun k => Cert.GraphMlp.act
            (Cert.GraphMlp.hid (fun d => (V c main_v38 : S100000x128.Idx → EReal) (ix2 r d)) (V c main_arg4)
              ((V c main_v39 : S1x512.Idx → EReal) (ix2 (0 : Fin 1) k)) k)
            ((V c main_v45 : S1x512.Idx → EReal) (ix2 (0 : Fin 1) k)) ((V c main_v49 : S1x512.Idx → EReal) (ix2 (0 : Fin 1) k))
            ((V c main_v40 : S1x512.Idx → EReal) (ix2 (0 : Fin 1) k)) ((V c main_v41 : S1x512.Idx → EReal) (ix2 (0 : Fin 1) k)))
          (V c main_arg8) ((V c main_v42 : S1x64.Idx → EReal) (ix2 (0 : Fin 1) j)) j := by
  rw [arr_eq V c]
  rfl

end Cert.KernelIdeal.MlpValue

end
-- ==== Proof.StatsPieces.lean ====
/-
  What the first kernel's body leaves in its two accumulator blocks, case by case, as the body's arithmetic:
  at the first grid point the accumulators are zeroed and read back, so the point leaves the block's column
  sums (of the hidden pre-activation, and of its square) added to zero; at every later point it leaves them
  added to what the accumulators held.  Stated at any float instance.
-/
import proofs.«110060_j49778670960917_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StatsValue

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A later point leaves, in the sum accumulator holding `xo3`, `xo3` plus the block's column sums. -/
theorem out_B_3 (c : Dev nD) (i : grid0.Coords) (a1 : Memref sig .tc .vmem S5000x128 .f32) (h1 : a1.IsWhole)
    (a2 : Memref sig .tc .vmem S512x128 .f32) (h2 : a2.IsWhole) (a3 : Memref sig .tc .vmem S1x512 .f32) (h3 : a3.IsWhole)
    (a4 : Memref sig .tc .vmem S1x512 .f32) (h4 : a4.IsWhole) (a5 : Memref sig .tc .vmem S1x512 .f32) (h5 : a5.IsWhole)
    (hc : ¬cond0_0 i) (x0 : Vec F S5000x128 .f32) (x1 : Vec F S512x128 .f32) (x2 : Vec F S1x512 .f32)
    (xo3 xo4 : Vec F S1x512 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread,
    View.ld_unit_zero (S := S5000x128) hz, View.ld_unit_zero (S := S512x128) hz, View.ld_unit_zero (S := S1x512) hz]

/-- A later point leaves, in the sum-of-squares accumulator holding `xo4`, `xo4` plus the block's column sums of squares. -/
theorem out_B_4 (c : Dev nD) (i : grid0.Coords) (a1 : Memref sig .tc .vmem S5000x128 .f32) (h1 : a1.IsWhole)
    (a2 : Memref sig .tc .vmem S512x128 .f32) (h2 : a2.IsWhole) (a3 : Memref sig .tc .vmem S1x512 .f32) (h3 : a3.IsWhole)
    (a4 : Memref sig .tc .vmem S1x512 .f32) (h4 : a4.IsWhole) (a5 : Memref sig .tc .vmem S1x512 .f32) (h5 : a5.IsWhole)
    (hc : ¬cond0_0 i) (x0 : Vec F S5000x128 .f32) (x1 : Vec F S512x128 .f32) (x2 : Vec F S1x512 .f32)
    (xo3 xo4 : Vec F S1x512 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h5.read_unread,
    View.ld_unit_zero (S := S5000x128) hz, View.ld_unit_zero (S := S512x128) hz, View.ld_unit_zero (S := S1x512) hz]

/-- The first point zeroes the sum accumulator, reads the zeros back, and leaves them plus the block's column sums. -/
theorem out_A_3 (c : Dev nD) (i : grid0.Coords) (a1 : Memref sig .tc .vmem S5000x128 .f32) (h1 : a1.IsWhole)
    (a2 : Memref sig .tc .vmem S512x128 .f32) (h2 : a2.IsWhole) (a3 : Memref sig .tc .vmem S1x512 .f32) (h3 : a3.IsWhole)
    (a4 : Memref sig .tc .vmem S1x512 .f32) (h4 : a4.IsWhole) (a5 : Memref sig .tc .vmem S1x512 .f32) (h5 : a5.IsWhole)
    (hc : cond0_0 i) (x0 : Vec F S5000x128 .f32) (x1 : Vec F S512x128 .f32) (x2 : Vec F S1x512 .f32) :
    out0_A_3 c i a1 h1 a2 h2 a3 h3 a4 h4 a5 h5 hc x0 x1 x2 = k0_pay4 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread,
    View.ld_unit_zero (S := S5000x128) hz, View.ld_unit_zero (S := S512x128) hz, View.ld_unit_zero (S := S1x512) hz]

/-- The first point zeroes the sum-of-squares accumulator likewise. -/
theorem out_A_4 (c : Dev nD) (i : grid0.Coords) (a1 : Memref sig .tc .vmem S5000x128 .f32) (h1 : a1.IsWhole)
    (a2 : Memref sig .tc .vmem S512x128 .f32) (h2 : a2.IsWhole) (a3 : Memref sig .tc .vmem S1x512 .f32) (h3 : a3.IsWhole)
    (a4 : Memref sig .tc .vmem S1x512 .f32) (h4 : a4.IsWhole) (a5 : Memref sig .tc .vmem S1x512 .f32) (h5 : a5.IsWhole)
    (hc : cond0_0 i) (x0 : Vec F S5000x128 .f32) (x1 : Vec F S512x128 .f32) (x2 : Vec F S1x512 .f32) :
    out0_A_4 c i a1 h1 a2 h2 a3 h3 a4 h4 a5 h5 hc x0 x1 x2 = k0_pay5 x0 x1 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread,
    View.ld_unit_zero (S := S5000x128) hz, View.ld_unit_zero (S := S512x128) hz, View.ld_unit_zero (S := S1x512) hz]

end Cert.KernelIdeal.StatsValue

end
-- ==== Proof.StatsBody.lean ====
/-
  The arithmetic of the first kernel's body, read at the ideal values one entry at a time.

  On a block of 5000 feature rows `x0`, the weight matrix `x1` and the bias row `x2` the body forms the hidden
  pre-activation h(p, k) = Σ_d x0(p, d) · x1(k, d) + x2(k) (an exact matrix product against the transposed weights:
  over the extended reals the narrowing casts are the identity and the product carries no rounding and no order),
  and adds to each accumulator entry k the sum over the block's rows of h(p, k), respectively of h(p, k)².
-/
import proofs.«110060_j49778670960917_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.StatsValue

open Cert.KernelIdeal Cert.KernelIdeal.Gen

/-- The hidden pre-activation of row `p` of a feature block at unit `k`: the row against row `k` of the weight
    matrix, plus the unit's bias. -/
def hblk (x0 : Vec Ideal S5000x128 .f32) (x1 : Vec Ideal S512x128 .f32) (x2 : Vec Ideal S1x512 .f32)
    (p : Fin 5000) (k : Fin 512) : EReal :=
  (∑ d : Fin 128, (x0 : S5000x128.Idx → EReal) (ix2 p d) * (x1 : S512x128.Idx → EReal) (ix2 k d))
    + (x2 : S1x512.Idx → EReal) (ix2 0 k)

set_option maxHeartbeats 400000 in
/-- The body's pre-activation block, read at an entry: the exact matrix product (the narrowing casts are the
    identity on exact values, the transposed weight block read back at its own entry) plus the broadcast bias. -/
theorem pay3_apply (x0 : Vec Ideal S5000x128 .f32) (x1 : Vec Ideal S512x128 .f32) (x2 : Vec Ideal S1x512 .f32)
    (p : Fin 5000) (k : Fin 512) :
    (k0_pay3 (F := Ideal) x0 x1 x2 : S5000x512.Idx → EReal) (ix2 p k) = hblk x0 x1 x2 p k := by
  unfold k0_pay3 hblk
  dsimp only
  refine (addf_apply _ _ _).trans ?_
  refine congrArg₂ (· + ·) ?_ ?_
  · refine (Ideal.matmul_constant_zero_apply dot_S5000x128_S128x512_S5000x512_1_0_0_1_n_n none _ _ (ix2 p k)).trans ?_
    refine (Equiv.sum_comp (contrEquiv1 dot_S5000x128_S128x512_S5000x512_1_0_0_1_n_n 128 rfl rfl).symm _).symm.trans ?_
    refine Finset.sum_congr rfl fun d _ => ?_
    refine congrArg₂ (· * ·) ?_ ?_
    · refine (truncf_apply (φ := .f32) (ψ := .bf16) (shapeCast S5000x128 x0 _) _ _).trans ?_
      refine (congrFun (shapeCast_self x0 _) _).trans ?_
      refine congrArg x0 (funext fun a => Fin.ext ?_)
      match a with
      | ⟨0, _⟩ => rfl
      | ⟨1, _⟩ =>
        exact (DotDims.lhsIdx_val_of_single dot_S5000x128_S128x512_S5000x512_1_0_0_1_n_n rfl _ _).trans
          (contrEquiv1_symm_val dot_S5000x128_S128x512_S5000x512_1_0_0_1_n_n 128 rfl rfl d)
    · refine (transpose_apply _ _ _ _ (ix2 k d) fun b => ?_).trans (truncf_apply (φ := .f32) (ψ := .bf16) x1 _ _)
      match b with
      | ⟨0, _⟩ =>
        exact ((DotDims.rhsIdx_val_of_single dot_S5000x128_S128x512_S5000x512_1_0_0_1_n_n rfl _ _).trans
          (contrEquiv1_symm_val dot_S5000x128_S128x512_S5000x512_1_0_0_1_n_n 128 rfl rfl d)).symm
      | ⟨1, _⟩ => rfl
  · exact (broadcastTo_1b_ab_apply _ _ p k).trans (congrFun (shapeCast_self x2 _) _)

/-- The zero block the first point stores reads zero at every entry. -/
theorem pay1_apply (k : Fin 512) : (k0_pay1 (F := Ideal) : S1x512.Idx → EReal) (ix2 0 k) = 0 := by
  unfold k0_pay1
  exact Ideal.ofBits_zero_f32
theorem pay2_apply (k : Fin 512) : (k0_pay2 (F := Ideal) : S1x512.Idx → EReal) (ix2 0 k) = 0 := by
  unfold k0_pay2
  exact Ideal.ofBits_zero_f32

/-- The same at the index a reduction over the rows reads: row `p` inserted before the column. -/
theorem pay3_lift (x0 : Vec Ideal S5000x128 .f32) (x1 : Vec Ideal S512x128 .f32) (x2 : Vec Ideal S1x512 .f32)
    (h : S5000x512.Reduces [0] S512) (p : Fin 5000) (k : Fin 512) :
    (k0_pay3 (F := Ideal) x0 x1 x2 : S5000x512.Idx → EReal) (h.lift (ix1 k) p) = hblk x0 x1 x2 p k := by
  refine (congrArg (k0_pay3 (F := Ideal) x0 x1 x2) ?_).trans (pay3_apply x0 x1 x2 p k)
  funext a
  apply Fin.ext
  match a with
  | ⟨0, _⟩ => rfl
  | ⟨1, _⟩ => rfl

set_option maxHeartbeats 400000 in
/-- The sum accumulator after the body: what it held plus the sum over the block's rows of the pre-activation. -/
theorem pay4_apply (x0 : Vec Ideal S5000x128 .f32) (x1 : Vec Ideal S512x128 .f32) (x2 : Vec Ideal S1x512 .f32)
    (acc : Vec Ideal S1x512 .f32) (k : Fin 512) :
    (k0_pay4 (F := Ideal) x0 x1 x2 acc : S1x512.Idx → EReal) (ix2 0 k)
      = (acc : S1x512.Idx → EReal) (ix2 0 k) + ∑ p : Fin 5000, hblk x0 x1 x2 p k := by
  unfold k0_pay4
  dsimp only
  refine (addf_apply _ _ _).trans ?_
  refine congrArg₂ (· + ·) (congrFun (shapeCast_self acc _) _) ?_
  refine (shapeCast_a_1a_apply _ _ 0 k).trans ?_
  refine (Ideal.multiReduction_add_single (k0_pay3 (F := Ideal) x0 x1 x2) 0x00000000#32 _ _ _ (ix1 k)).trans ?_
  refine Finset.sum_congr rfl fun p _ => ?_
  exact pay3_lift x0 x1 x2 _ p k

set_option maxHeartbeats 400000 in
/-- The sum-of-squares accumulator after the body: what it held plus the sum over the block's rows of the squared
    pre-activation. -/
theorem pay5_apply (x0 : Vec Ideal S5000x128 .f32) (x1 : Vec Ideal S512x128 .f32) (x2 : Vec Ideal S1x512 .f32)
    (acc : Vec Ideal S1x512 .f32) (k : Fin 512) :
    (k0_pay5 (F := Ideal) x0 x1 x2 acc : S1x512.Idx → EReal) (ix2 0 k)
      = (acc : S1x512.Idx → EReal) (ix2 0 k) + ∑ p : Fin 5000, hblk x0 x1 x2 p k * hblk x0 x1 x2 p k := by
  unfold k0_pay5
  dsimp only
  refine (addf_apply _ _ _).trans ?_
  refine congrArg₂ (· + ·) (congrFun (shapeCast_self acc _) _) ?_
  refine (shapeCast_a_1a_apply _ _ 0 k).trans ?_
  refine (Ideal.multiReduction_add_single (mulf (k0_pay3 (F := Ideal) x0 x1 x2) (k0_pay3 (F := Ideal) x0 x1 x2)) 0x00000000#32 _ _ _ (ix1 k)).trans ?_
  refine Finset.sum_congr rfl fun p _ => ?_
  refine (mulf_apply _ _ _).trans ?_
  exact congrArg₂ (· * ·) (pay3_lift x0 x1 x2 _ p k) (pay3_lift x0 x1 x2 _ p k)

end Cert.KernelIdeal.StatsValue

end
-- ==== Proof.StatsValue.lean ====
/-
  What the first kernel leaves in its two result arrays: at every hidden unit k, the sum over all 100000 rows of
  the hidden pre-activation h(r, k) = Σ_d ft(r, d) · W1(k, d) + b1(k), and the sum of its squares.

  The kernel visits the rows in 20 blocks of 5000.  The first point zeroes both accumulators and adds its block's
  column sums; every later point adds its block's column sums to what the point before left.  By induction on the
  point the accumulators hold, after point n, the sums over the rows of blocks 0 … n; the arrays are written back
  once, after the last point; and since addition of extended reals is commutative and associative, the twenty
  block sums are the one sum over the rows, row 5000 t + p being row p of block t.
-/
import proofs.«110060_j49778670960917_1_alg».proof.Proof.StatsPieces
import proofs.«110060_j49778670960917_1_alg».proof.Proof.StatsBody
import proofs.«110060_j49778670960917_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsValue

open Cert.KernelIdeal Cert.KernelIdeal.Gen

variable (V : (c : Dev nD) → (b : Ref sig .tc) → Buf (Elt Ideal) ((c : Thread nD τ).loc b))

/-! ## The blocks the windows read -/

/-- The feature window's block at point `t` is row block `t`; -/
theorem index0_0 : ∀ t : Fin cfg0.N, win0_0.index t 0 = t.val ∧ win0_0.index t 1 = 0 :=
  (by decide +kernel : ∀ t : Fin grid0.N, win0_0.index t 0 = t.val ∧ win0_0.index t 1 = 0)
/-- the weight window's and the bias window's one block is the whole array. -/
theorem index0_1 : ∀ t : Fin cfg0.N, win0_1.index t 0 = 0 ∧ win0_1.index t 1 = 0 :=
  (by decide +kernel : ∀ t : Fin grid0.N, win0_1.index t 0 = 0 ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)

/-- Row `p` of the feature block at point `t` is row `5000 t + p` of the features. -/
theorem iblk0_0_apply (c : Dev nD) (t : Fin cfg0.N) (p : Fin 5000) (d : Fin 128) (hr : 5000 * t.val + p.val < 100000) :
    (iblk0 V c 0 t : S5000x128.Idx → EReal) (ix2 p d)
      = (V c main_v38 : S100000x128.Idx → EReal) (ix2 ⟨5000 * t.val + p.val, hr⟩ d) := by
  unfold iblk0
  rw [View.read_apply]
  show V c main_v38 _ = V c main_v38 _
  congr 1
  funext a
  apply Fin.ext
  match a with
  | ⟨0, _⟩ => show win0_0.index t 0 * 5000 + 1 * p.val = 5000 * t.val + p.val; rw [(index0_0 t).1]; omega
  | ⟨1, _⟩ => show win0_0.index t 1 * 128 + 1 * d.val = d.val; rw [(index0_0 t).2]; omega

/-- The weight block at any point is the weight matrix. -/
theorem iblk0_1_apply (c : Dev nD) (t : Fin cfg0.N) (k : Fin 512) (d : Fin 128) :
    (iblk0 V c 1 t : S512x128.Idx → EReal) (ix2 k d) = (V c main_arg4 : S512x128.Idx → EReal) (ix2 k d) := by
  unfold iblk0
  rw [View.read_apply]
  show V c main_arg4 _ = V c main_arg4 _
  congr 1
  funext a
  apply Fin.ext
  match a with
  | ⟨0, _⟩ => show win0_1.index t 0 * 512 + 1 * k.val = k.val; rw [(index0_1 t).1]; omega
  | ⟨1, _⟩ => show win0_1.index t 1 * 128 + 1 * d.val = d.val; rw [(index0_1 t).2]; omega

/-- The bias block at any point is the bias row. -/
theorem iblk0_2_apply (c : Dev nD) (t : Fin cfg0.N) (u : Fin 1) (k : Fin 512) :
    (iblk0 V c 2 t : S1x512.Idx → EReal) (ix2 u k) = (V c main_v39 : S1x512.Idx → EReal) (ix2 u k) := by
  unfold iblk0
  rw [View.read_apply]
  show V c main_v39 _ = V c main_v39 _
  congr 1
  funext a
  apply Fin.ext
  match a with
  | ⟨0, _⟩ => show win0_2.index t 0 * 1 + 1 * u.val = u.val; rw [(index0_2 t).1]; omega
  | ⟨1, _⟩ => show win0_2.index t 1 * 512 + 1 * k.val = k.val; rw [(index0_2 t).2]; omega

/-! ## The accumulators, point by point -/

/-- After the first point the accumulators hold the body's sums over the first block, added to zero. -/
theorem outs_zero (c : Dev nD) (h : 0 < cfg0.N) :
    outsAt0 V c 0 h = (k0_pay4 (iblk0 V c 0 ⟨0, h⟩) (iblk0 V c 1 ⟨0, h⟩) (iblk0 V c 2 ⟨0, h⟩) (k0_pay1 (F := Ideal)),
      k0_pay5 (iblk0 V c 0 ⟨0, h⟩) (iblk0 V c 1 ⟨0, h⟩) (iblk0 V c 2 ⟨0, h⟩) (k0_pay2 (F := Ideal))) := by
  refine (outsAt0_A V c ⟨0, h⟩ rfl).trans ?_
  exact congrArg₂ Prod.mk
    (out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) ((hcond0_0 ⟨0, h⟩).mpr rfl)
      (iblk0 V c 0 ⟨0, h⟩) (iblk0 V c 1 ⟨0, h⟩) (iblk0 V c 2 ⟨0, h⟩))
    (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) ((hcond0_0 ⟨0, h⟩).mpr rfl)
      (iblk0 V c 0 ⟨0, h⟩) (iblk0 V c 1 ⟨0, h⟩) (iblk0 V c 2 ⟨0, h⟩))

/-- After a later point they hold the body's sums over that point's block, added to what the point before left. -/
theorem outs_succ (c : Dev nD) (n : ℕ) (h : n + 1 < cfg0.N) :
    outsAt0 V c (n + 1) h
      = (k0_pay4 (iblk0 V c 0 ⟨n + 1, h⟩) (iblk0 V c 1 ⟨n + 1, h⟩) (iblk0 V c 2 ⟨n + 1, h⟩) (outsAt0 V c n (Nat.lt_of_succ_lt h)).1,
        k0_pay5 (iblk0 V c 0 ⟨n + 1, h⟩) (iblk0 V c 1 ⟨n + 1, h⟩) (iblk0 V c 2 ⟨n + 1, h⟩) (outsAt0 V c n (Nat.lt_of_succ_lt h)).2) := by
  have hN : cfg0.N = 20 := N_0
  have hB : ¬(⟨n + 1, h⟩ : Fin cfg0.N).val % 20 = 0 := by dsimp only; omega
  refine (outsAt0_B V c ⟨n + 1, h⟩ hB).trans ?_
  exact congrArg₂ Prod.mk
    (out_B_3 (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => hB ((hcond0_0 ⟨n + 1, h⟩).mp hc))
      (iblk0 V c 0 ⟨n + 1, h⟩) (iblk0 V c 1 ⟨n + 1, h⟩) (iblk0 V c 2 ⟨n + 1, h⟩)
      (outsAt0 V c n (Nat.lt_of_succ_lt h)).1 (outsAt0 V c n (Nat.lt_of_succ_lt h)).2)
    (out_B_4 (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => hB ((hcond0_0 ⟨n + 1, h⟩).mp hc))
      (iblk0 V c 0 ⟨n + 1, h⟩) (iblk0 V c 1 ⟨n + 1, h⟩) (iblk0 V c 2 ⟨n + 1, h⟩)
      (outsAt0 V c n (Nat.lt_of_succ_lt h)).1 (outsAt0 V c n (Nat.lt_of_succ_lt h)).2)

/-! ## The accumulators as sums over the rows seen so far -/

/-- The three operands as the region finds them: the propagated features, the first weight matrix, its bias row. -/
abbrev feat (c : Dev nD) : S100000x128.Idx → EReal := V c main_v38
abbrev wgt (c : Dev nD) : S512x128.Idx → EReal := V c main_arg4
abbrev bias (c : Dev nD) : S1x512.Idx → EReal := V c main_v39

/-- The pre-activation of row `r` of the whole feature array at unit `k`. -/
def hrow (c : Dev nD) (r : Fin 100000) (k : Fin 512) : EReal :=
  (∑ d : Fin 128, feat V c (ix2 r d) * wgt V c (ix2 k d)) + bias V c (ix2 0 k)

/-- The same indexed by a natural number, zero past the last row. -/
def hnat (c : Dev nD) (k : Fin 512) (r : ℕ) : EReal := if h : r < 100000 then hrow V c ⟨r, h⟩ k else 0

/-- Row `p` of the block at point `t` has the pre-activation of row `5000 t + p`. -/
theorem hblk_eq (c : Dev nD) (t : Fin cfg0.N) (p : Fin 5000) (k : Fin 512) :
    hblk (iblk0 V c 0 t) (iblk0 V c 1 t) (iblk0 V c 2 t) p k = hnat V c k (5000 * t.val + p.val) := by
  have hN : cfg0.N = 20 := N_0
  have ht := t.isLt
  have hp := p.isLt
  have hr : 5000 * t.val + p.val < 100000 := by omega
  unfold hnat
  rw [dif_pos hr]
  unfold hblk hrow
  rw [iblk0_2_apply V c t 0 k]
  exact congrArg (· + bias V c (ix2 0 k))
    (Finset.sum_congr rfl fun d _ => by rw [iblk0_0_apply V c t p d hr, iblk0_1_apply V c t k d])

/-- The sum accumulator after point `n`: the pre-activations of the rows of blocks `0 … n`, summed. -/
theorem outs_sum (c : Dev nD) (k : Fin 512) : ∀ (n : ℕ) (hn : n < cfg0.N),
    ((outsAt0 V c n hn).1 : S1x512.Idx → EReal) (ix2 0 k)
      = ∑ s ∈ Finset.range (n + 1), ∑ p : Fin 5000, hnat V c k (5000 * s + p.val)
  | 0, hn => by
    rw [outs_zero V c hn]
    refine (pay4_apply _ _ _ _ k).trans ?_
    rw [pay1_apply, zero_add, Finset.sum_range_one]
    exact Finset.sum_congr rfl fun p _ => hblk_eq V c ⟨0, hn⟩ p k
  | n + 1, hn => by
    rw [outs_succ V c n hn]
    refine (pay4_apply _ _ _ _ k).trans ?_
    rw [outs_sum c k n (Nat.lt_of_succ_lt hn), Finset.sum_range_succ _ (n + 1)]
    exact congrArg₂ (· + ·) rfl (Finset.sum_congr rfl fun p _ => hblk_eq V c ⟨n + 1, hn⟩ p k)

/-- The sum-of-squares accumulator after point `n` likewise. -/
theorem outs_sumsq (c : Dev nD) (k : Fin 512) : ∀ (n : ℕ) (hn : n < cfg0.N),
    ((outsAt0 V c n hn).2 : S1x512.Idx → EReal) (ix2 0 k)
      = ∑ s ∈ Finset.range (n + 1), ∑ p : Fin 5000, hnat V c k (5000 * s + p.val) * hnat V c k (5000 * s + p.val)
  | 0, hn => by
    rw [outs_zero V c hn]
    refine (pay5_apply _ _ _ _ k).trans ?_
    rw [pay2_apply, zero_add, Finset.sum_range_one]
    exact Finset.sum_congr rfl fun p _ => by rw [hblk_eq V c ⟨0, hn⟩ p k]
  | n + 1, hn => by
    rw [outs_succ V c n hn]
    refine (pay5_apply _ _ _ _ k).trans ?_
    rw [outs_sumsq c k n (Nat.lt_of_succ_lt hn), Finset.sum_range_succ _ (n + 1)]
    exact congrArg₂ (· + ·) rfl (Finset.sum_congr rfl fun p _ => by rw [hblk_eq V c ⟨n + 1, hn⟩ p k])

/-! ## Twenty blocks of five thousand rows are the hundred thousand rows -/

/-- Sums over consecutive blocks of `b` are the sum over the whole range. -/
theorem sum_blocks {M : Type} [AddCommMonoid M] (f : ℕ → M) (b : ℕ) : ∀ m : ℕ,
    ∑ s ∈ Finset.range m, ∑ p : Fin b, f (b * s + p.val) = ∑ r ∈ Finset.range (b * m), f r
  | 0 => by simp
  | m + 1 => by
    rw [Finset.sum_range_succ, sum_blocks f b m, Nat.mul_succ, Finset.sum_range_add,
      Fin.sum_univ_eq_sum_range (fun p => f (b * m + p)) b]

/-- A sum over the rows, as a sum over a range of natural numbers. -/
theorem sum_rows (g : Fin 100000 → EReal) (G : ℕ → EReal) (hG : ∀ r : Fin 100000, G r.val = g r) :
    ∑ r ∈ Finset.range 100000, G r = ∑ r : Fin 100000, g r := by
  rw [← Fin.sum_univ_eq_sum_range G 100000]
  exact Finset.sum_congr rfl fun r _ => hG r

/-! ## The two result arrays after the last point -/

/-- The last of the twenty points. -/
theorem last_lt : 19 < cfg0.N := by rw [show cfg0.N = 20 from N_0]; decide

/-- Both accumulator windows have one block, the whole array, at every point. -/
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = 0 ∧ win0_4.index t 1 = 0 :=
  (by decide +kernel : ∀ t : Fin grid0.N, win0_4.index t 0 = 0 ∧ win0_4.index t 1 = 0)

/-- The one write-back of the sum window, after the last point, writes what the accumulator then holds. -/
theorem flushed_eq_3 (c : Dev nD) (t : Fin cfg0.N) (hf : (cfg0.win 3).flush t = true) :
    (dat0 V c).flushed 3 t = ((cfg0.win 3).blk t).view.read (Elt Ideal) (outsAt0 V c 19 last_lt).1 := by
  have hN : cfg0.N = 20 := N_0
  have h19 : t.val = 19 := by have := (flush0_3 t).mp hf; have := t.isLt; omega
  obtain rfl : t = ⟨19, last_lt⟩ := Fin.ext h19
  show (cfg0.win 3).cut (grid0.coords ⟨19, last_lt⟩) ((dat0 V c).after 3 ⟨19, last_lt⟩) = _
  rw [after0_3]
  have hz' : (fun a => win0_3.index ⟨19, last_lt⟩ a * main_v43_0.ty.shape.size a) = fun _ => 0 :=
    funext fun a => match a with
      | ⟨0, _⟩ => by show win0_3.index ⟨19, last_lt⟩ 0 * 1 = 0; rw [(index0_3 _).1]
      | ⟨1, _⟩ => by show win0_3.index ⟨19, last_lt⟩ 1 * 512 = 0; rw [(index0_3 _).2]
  exact (Memref.read_access_unit_zero (Elt Ideal) main_v43_0 hz' (fun a => by rw [congrFun hz' a]; simp) (outsAt0 V c 19 last_lt).1).symm

/-- So the sum array ends holding the accumulator after the last point. -/
theorem final_3 (c : Dev nD) : (dat0 V c).arrAt 3 cfg0.N = (outsAt0 V c 19 last_lt).1 :=
  (dat0 V c).arrAt_eq_of_cover 3 (outsAt0 V c 19 last_lt).1 (flushed_eq_3 V c) fun i =>
    ⟨⟨19, last_lt⟩, (flush0_3 ⟨19, last_lt⟩).mpr rfl, by
      show i ∈ ((View.whole main_v43_0).slice (win0_3.rect ⟨19, last_lt⟩)).set
      rw [View.set_slice_whole, Rect.mem_set_unit]
      intro a
      have h0 : (i 0 : Nat) < 1 := (i 0).isLt
      have h1 : (i 1 : Nat) < 512 := (i 1).isLt
      match a with
      | ⟨0, _⟩ =>
        show win0_3.index ⟨19, last_lt⟩ 0 * win0_3.size 0 ≤ (i 0 : Nat) ∧ (i 0 : Nat) < win0_3.index ⟨19, last_lt⟩ 0 * win0_3.size 0 + win0_3.xsize (grid0.coords ⟨19, last_lt⟩) 0
        rw [(index0_3 _).1, show win0_3.xsize (grid0.coords ⟨19, last_lt⟩) 0 = 1 from by decide +kernel]; omega
      | ⟨1, _⟩ =>
        show win0_3.index ⟨19, last_lt⟩ 1 * win0_3.size 1 ≤ (i 1 : Nat) ∧ (i 1 : Nat) < win0_3.index ⟨19, last_lt⟩ 1 * win0_3.size 1 + win0_3.xsize (grid0.coords ⟨19, last_lt⟩) 1
        rw [(index0_3 _).2, show win0_3.xsize (grid0.coords ⟨19, last_lt⟩) 1 = 512 from by decide +kernel]; omega⟩

/-- The one write-back of the sum-of-squares window likewise. -/
theorem flushed_eq_4 (c : Dev nD) (t : Fin cfg0.N) (hf : (cfg0.win 4).flush t = true) :
    (dat0 V c).flushed 4 t = ((cfg0.win 4).blk t).view.read (Elt Ideal) (outsAt0 V c 19 last_lt).2 := by
  have hN : cfg0.N = 20 := N_0
  have h19 : t.val = 19 := by have := (flush0_4 t).mp hf; have := t.isLt; omega
  obtain rfl : t = ⟨19, last_lt⟩ := Fin.ext h19
  show (cfg0.win 4).cut (grid0.coords ⟨19, last_lt⟩) ((dat0 V c).after 4 ⟨19, last_lt⟩) = _
  rw [after0_4]
  have hz' : (fun a => win0_4.index ⟨19, last_lt⟩ a * main_v43_1.ty.shape.size a) = fun _ => 0 :=
    funext fun a => match a with
      | ⟨0, _⟩ => by show win0_4.index ⟨19, last_lt⟩ 0 * 1 = 0; rw [(index0_4 _).1]
      | ⟨1, _⟩ => by show win0_4.index ⟨19, last_lt⟩ 1 * 512 = 0; rw [(index0_4 _).2]
  exact (Memref.read_access_unit_zero (Elt Ideal) main_v43_1 hz' (fun a => by rw [congrFun hz' a]; simp) (outsAt0 V c 19 last_lt).2).symm

theorem final_4 (c : Dev nD) : (dat0 V c).arrAt 4 cfg0.N = (outsAt0 V c 19 last_lt).2 :=
  (dat0 V c).arrAt_eq_of_cover 4 (outsAt0 V c 19 last_lt).2 (flushed_eq_4 V c) fun i =>
    ⟨⟨19, last_lt⟩, (flush0_4 ⟨19, last_lt⟩).mpr rfl, by
      show i ∈ ((View.whole main_v43_1).slice (win0_4.rect ⟨19, last_lt⟩)).set
      rw [View.set_slice_whole, Rect.mem_set_unit]
      intro a
      have h0 : (i 0 : Nat) < 1 := (i 0).isLt
      have h1 : (i 1 : Nat) < 512 := (i 1).isLt
      match a with
      | ⟨0, _⟩ =>
        show win0_4.index ⟨19, last_lt⟩ 0 * win0_4.size 0 ≤ (i 0 : Nat) ∧ (i 0 : Nat) < win0_4.index ⟨19, last_lt⟩ 0 * win0_4.size 0 + win0_4.xsize (grid0.coords ⟨19, last_lt⟩) 0
        rw [(index0_4 _).1, show win0_4.xsize (grid0.coords ⟨19, last_lt⟩) 0 = 1 from by decide +kernel]; omega
      | ⟨1, _⟩ =>
        show win0_4.index ⟨19, last_lt⟩ 1 * win0_4.size 1 ≤ (i 1 : Nat) ∧ (i 1 : Nat) < win0_4.index ⟨19, last_lt⟩ 1 * win0_4.size 1 + win0_4.xsize (grid0.coords ⟨19, last_lt⟩) 1
        rw [(index0_4 _).2, show win0_4.xsize (grid0.coords ⟨19, last_lt⟩) 1 = 512 from by decide +kernel]; omega⟩

/-! ## The result arrays as sums over all rows -/

/-- The sum array at unit `k`: the pre-activations of all rows, summed. -/
theorem arr_sum' (c : Dev nD) (k : Fin 512) :
    @Eq EReal (((dat0 V c).arrAt 3 cfg0.N : S1x512.Idx → EReal) (ix2 0 k)) (∑ r : Fin 100000, hrow V c r k) :=
  (congrFun (final_3 V c) (ix2 0 k)).trans
    ((outs_sum V c k 19 last_lt).trans
      ((sum_blocks (hnat V c k) 5000 20).trans
        (sum_rows (fun r => hrow V c r k) (hnat V c k) fun r => by unfold hnat; rw [dif_pos r.isLt])))

/-- The sum-of-squares array at unit `k`: the squared pre-activations of all rows, summed. -/
theorem arr_sumsq' (c : Dev nD) (k : Fin 512) :
    @Eq EReal (((dat0 V c).arrAt 4 cfg0.N : S1x512.Idx → EReal) (ix2 0 k)) (∑ r : Fin 100000, hrow V c r k * hrow V c r k) :=
  (congrFun (final_4 V c) (ix2 0 k)).trans
    ((outs_sumsq V c k 19 last_lt).trans
      ((sum_blocks (fun r => hnat V c k r * hnat V c k r) 5000 20).trans
        (sum_rows (fun r => hrow V c r k * hrow V c r k) (fun r => hnat V c k r * hnat V c k r)
          fun r => by unfold hnat; rw [dif_pos r.isLt])))

/-- The sum array, in the shared vocabulary. -/
theorem arr_sum (c : Dev nD) (k : Fin 512) :
    @Eq EReal (((Gen.dat0 (F := Ideal) V c).arrAt 3 cfg0.N : S1x512.Idx → EReal) (ix2 0 k))
      (∑ r : Fin 100000, Cert.GraphMlp.hid (fun d => (V c main_v38 : S100000x128.Idx → EReal) (ix2 r d)) (V c main_arg4)
          ((V c main_v39 : S1x512.Idx → EReal) (ix2 0 k)) k) :=
  (arr_sum' V c k).trans (Finset.sum_congr rfl fun r _ => rfl)

/-- The sum-of-squares array, in the shared vocabulary. -/
theorem arr_sumsq (c : Dev nD) (k : Fin 512) :
    @Eq EReal (((Gen.dat0 (F := Ideal) V c).arrAt 4 cfg0.N : S1x512.Idx → EReal) (ix2 0 k))
      (∑ r : Fin 100000,
          Cert.GraphMlp.hid (fun d => (V c main_v38 : S100000x128.Idx → EReal) (ix2 r d)) (V c main_arg4)
            ((V c main_v39 : S1x512.Idx → EReal) (ix2 0 k)) k
          * Cert.GraphMlp.hid (fun d => (V c main_v38 : S100000x128.Idx → EReal) (ix2 r d)) (V c main_arg4)
            ((V c main_v39 : S1x512.Idx → EReal) (ix2 0 k)) k) :=
  (arr_sumsq' V c k).trans (Finset.sum_congr rfl fun r _ => rfl)

end Cert.KernelIdeal.StatsValue

end
-- ==== Proof.KValue.lean ====
/-
  The kernel program's result, entry by entry, as the specification's perceptron with the one-pass variance.

  The result buffer ends at the second region's output array; its block at a grid point is the perceptron's output
  rows for that block, with the mean and variance the region was handed; those are the first region's two column
  sums — the sums over all 100000 rows of the hidden pre-activation and of its square — divided by the number of rows,
  the variance as the mean of the squares minus the squared mean.  Every operand is then walked back to the launch
  memory.
-/
import proofs.«110060_j49778670960917_1_alg».proof.Proof.KReads
import proofs.«110060_j49778670960917_1_alg».proof.Proof.MlpArray
import proofs.«110060_j49778670960917_1_alg».proof.Proof.StatsValue

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen Cert.KernelIdeal.HostValue

variable (m : (ℓ : Loc nD τ sig) → Buf (Elt Ideal) ℓ) (ρ : Dev nD → PrngReg) (c : Dev nD)

/-- The first region's column sum, over the launch memory. -/
theorem sum_eq (k : Fin 512) :
    @Eq EReal (((dat0 (F := Ideal) (V1 m ρ) c).arrAt 3 cfg0.N : S1x512.Idx → EReal) (ix2 (0 : Fin 1) k))
      (∑ r' : Fin 100000, (fun r' => Cert.GraphMlp.hid (fun d => ((ftOf (F := Ideal) (m ((c : Thread nD τ).loc main_arg0)) (m ((c : Thread nD τ).loc main_arg1)) (m ((c : Thread nD τ).loc main_arg2)) (m ((c : Thread nD τ).loc main_arg3))) : S100000x128.Idx → EReal) (ix2 r' d)) (m ((c : Thread nD τ).loc main_arg4)) (((m ((c : Thread nD τ).loc main_arg5)) : S512.Idx → EReal) (ix1 k)) k) r') := by
  rw [Cert.KernelIdeal.StatsValue.arr_sum (V1 m ρ) c k]
  simp only [entry0_ft m ρ c, entry0_w1 m ρ c, entry0_b1 m ρ c]

/-- The first region's column sum of squares, over the launch memory. -/
theorem sumsq_eq (k : Fin 512) :
    @Eq EReal (((dat0 (F := Ideal) (V1 m ρ) c).arrAt 4 cfg0.N : S1x512.Idx → EReal) (ix2 (0 : Fin 1) k))
      (∑ r' : Fin 100000, (fun r' => Cert.GraphMlp.hid (fun d => ((ftOf (F := Ideal) (m ((c : Thread nD τ).loc main_arg0)) (m ((c : Thread nD τ).loc main_arg1)) (m ((c : Thread nD τ).loc main_arg2)) (m ((c : Thread nD τ).loc main_arg3))) : S100000x128.Idx → EReal) (ix2 r' d)) (m ((c : Thread nD τ).loc main_arg4)) (((m ((c : Thread nD τ).loc main_arg5)) : S512.Idx → EReal) (ix1 k)) k) r' * (fun r' => Cert.GraphMlp.hid (fun d => ((ftOf (F := Ideal) (m ((c : Thread nD τ).loc main_arg0)) (m ((c : Thread nD τ).loc main_arg1)) (m ((c : Thread nD τ).loc main_arg2)) (m ((c : Thread nD τ).loc main_arg3))) : S100000x128.Idx → EReal) (ix2 r' d)) (m ((c : Thread nD τ).loc main_arg4)) (((m ((c : Thread nD τ).loc main_arg5)) : S512.Idx → EReal) (ix1 k)) k) r') := by
  rw [Cert.KernelIdeal.StatsValue.arr_sumsq (V1 m ρ) c k]
  simp only [entry0_ft m ρ c, entry0_w1 m ρ c, entry0_b1 m ρ c]

/-- The mean the second region reads is the column mean of the hidden pre-activation. -/
theorem mean_eq (k : Fin 512) :
    @Eq EReal ((V3 m ρ c main_v45 : S1x512.Idx → EReal) (ix2 (0 : Fin 1) k)) (Cert.GraphMlp.meanOf (fun r' => Cert.GraphMlp.hid (fun d => ((ftOf (F := Ideal) (m ((c : Thread nD τ).loc main_arg0)) (m ((c : Thread nD τ).loc main_arg1)) (m ((c : Thread nD τ).loc main_arg2)) (m ((c : Thread nD τ).loc main_arg3))) : S100000x128.Idx → EReal) (ix2 r' d)) (m ((c : Thread nD τ).loc main_arg4)) (((m ((c : Thread nD τ).loc main_arg5)) : S512.Idx → EReal) (ix1 k)) k)) := by
  rw [entry1_mean m ρ c k, sum_eq m ρ c k]
  rfl

/-- The variance the second region reads is the one-pass column variance of the hidden pre-activation. -/
theorem var_eq (k : Fin 512) :
    @Eq EReal ((V3 m ρ c main_v49 : S1x512.Idx → EReal) (ix2 (0 : Fin 1) k)) (Cert.GraphMlp.varOnePass (fun r' => Cert.GraphMlp.hid (fun d => ((ftOf (F := Ideal) (m ((c : Thread nD τ).loc main_arg0)) (m ((c : Thread nD τ).loc main_arg1)) (m ((c : Thread nD τ).loc main_arg2)) (m ((c : Thread nD τ).loc main_arg3))) : S100000x128.Idx → EReal) (ix2 r' d)) (m ((c : Thread nD τ).loc main_arg4)) (((m ((c : Thread nD τ).loc main_arg5)) : S512.Idx → EReal) (ix1 k)) k)) := by
  rw [entry1_var m ρ c k, sum_eq m ρ c k, sumsq_eq m ρ c k]
  rfl

/-- The result buffer, entry by entry. -/
theorem value (r : Fin 100000) (j : Fin 64) :
    @Eq EReal ((W4 m ρ c (Proc.devRef .tc main_v50) : S100000x64.Idx → EReal) (ix2 r j))
      (Cert.GraphMlp.result Cert.GraphMlp.varOnePass (ftOf (F := Ideal) (m ((c : Thread nD τ).loc main_arg0)) (m ((c : Thread nD τ).loc main_arg1)) (m ((c : Thread nD τ).loc main_arg2)) (m ((c : Thread nD τ).loc main_arg3))) (m ((c : Thread nD τ).loc main_arg4)) (fun k => ((m ((c : Thread nD τ).loc main_arg5)) : S512.Idx → EReal) (ix1 k)) (fun k => ((m ((c : Thread nD τ).loc main_arg6)) : S512.Idx → EReal) (ix1 k)) (fun k => ((m ((c : Thread nD τ).loc main_arg7)) : S512.Idx → EReal) (ix1 k)) (m ((c : Thread nD τ).loc main_arg8)) (fun j => ((m ((c : Thread nD τ).loc main_arg9)) : S64.Idx → EReal) (ix1 j)) r j) := by
  rw [show W4 m ρ c (Proc.devRef .tc main_v50) = (dat1 (V3 m ρ) c).arrAt 9 cfg1.N from W4_arr m ρ c 9,
    Cert.KernelIdeal.MlpValue.arr_out (V3 m ρ) c r j]
  simp only [entry1_ft m ρ c, entry1_w1 m ρ c, entry1_b1 m ρ c, entry1_gamma m ρ c, entry1_beta m ρ c, entry1_b2 m ρ c,
    entry1_w2 m ρ c, mean_eq m ρ c, var_eq m ρ c]
  rfl

end Cert.KernelIdeal.KernelValue

end
-- ==== Proof.RefTerm.lean ====
/-
  The reference's composed term, in named stages.

  The reference is a straight line of host operations; composing them gives, at the ideal values, one term of the ten
  arguments.  It is stated here in stages, each a function of the previous ones, so that no single term is large:
  the propagated features (three rounds of gather, multiply by the edge weight and scatter-add), the hidden
  pre-activation (the features against the transposed first weight matrix, plus the bias row), the column mean, the
  column variance (the mean of the squared deviations, under the guard that its divisor — the number of rows minus
  zero — is positive), the normalised, scaled, shifted and rectified activation, and the result (the activation against
  the transposed second weight matrix, plus the bias row).
-/
import proofs.«110060_j49778670960917_1_alg».proof.Proof.Gen.ReferenceIdeal
import proofs.«110060_j49778670960917_1_alg».proof.Proof.Spec
import Idealize.ShloMosaic.PureOps.Ideal

noncomputable section

namespace Cert.ReferenceIdeal.HandRun

open Cert.ReferenceIdeal Cert.ReferenceIdeal.Gen Idealize.ShloMosaic

/-- The propagated features: three rounds of gather, multiply by the edge weight, scatter-add. -/
def ft (a0 : FVec Ideal S100000x128 .f32) (a1 a2 : IVec S1600000 32) (a3 : FVec Ideal S1600000 .f32) :
    FVec Ideal S100000x128 .f32 :=
  Cert.GraphMlp.hop3 gather_S100000x128_S1600000x1_S1600000x128_1_0_n_n_0_1_1128 scatter_S100000x128_S1600000x1_S1600000x128_1_0_0_1
    bcast_S_S1600000 bcast_S1600000_S1600000x1_0 bcast_S1600000x1_S1600000x128_0_1 bcast_S_S100000x128 a0 a1 a2 a3

/-- The hidden pre-activation: the features against the transposed first weight matrix, plus the bias row. -/
def hpre (x : FVec Ideal S100000x128 .f32) (a4 : FVec Ideal S512x128 .f32) (a5 : FVec Ideal S512 .f32) :
    FVec Ideal S100000x512 .f32 :=
  addf (Host.dotGeneral dot_S100000x128_S128x512_S100000x512_1_0_0_1_n_n none x (transpose S128x512 [1, 0] a4 transposes_S512x128_S128x512_1_0))
    (broadcastInDim S100000x512 ![0, 1] bcast_S1x512_S100000x512_0_1 (broadcastInDim S1x512 ![1] bcast_S512_S1x512_1 a5))

/-- The column mean: the column sums divided by the number of rows. -/
def meanV (h : FVec Ideal S100000x512 .f32) : FVec Ideal S512 .f32 :=
  Host.divf (Host.reduceAdd h (constant S_ .f32 0x00000000#32) reducesTo_S100000x512_S512_d0 h_S_)
    (broadcastInDim S512 ![] bcast_S_S512 (constant S_ .f32 0x47C35000#32))

/-- The deviations from the column mean, as the variance computes them (the mean kept as a row and spread over the rows). -/
def devV (h : FVec Ideal S100000x512 .f32) : FVec Ideal S100000x512 .f32 :=
  subf h (broadcastInDim S100000x512 ![0, 1] bcast_S1x512_S100000x512_0_1
    (Host.divf (broadcastInDim S1x512 ![1] bcast_S512_S1x512_1
        (Host.reduceAdd h (constant S_ .f32 0x00000000#32) reducesTo_S100000x512_S512_d0 h_S_))
      (broadcastInDim S1x512 ![] bcast_S_S1x512 (constant S_ .f32 0x47C35000#32))))

/-- The variance's divisor: the number of rows minus the (zero) degrees-of-freedom correction. -/
def cntV : FVec Ideal S_ .f32 :=
  subf (constant S_ .f32 0x47C35000#32) (sitofp .f32 (constantI S_ 32 0#32))

/-- The column variance: the mean of the squared deviations, guarded by the divisor being positive. -/
def varV (h : FVec Ideal S100000x512 .f32) : FVec Ideal S512 .f32 :=
  select (broadcastInDim S512 ![] bcast_S_S512 (cmpf .ogt cntV (constant S_ .f32 0x00000000#32)))
    (Host.divf (Host.reduceAdd (mulf (devV h) (devV h)) (constant S_ .f32 0x00000000#32) reducesTo_S100000x512_S512_d0 h_S_)
      (broadcastInDim S512 ![] bcast_S_S512 cntV))
    (broadcastInDim S512 ![] bcast_S_S512 (id (constant S_ .f32 0x7FC00000#32)))

/-- The normalised, scaled, shifted and rectified activation. -/
def actV (h : FVec Ideal S100000x512 .f32) (a6 a7 : FVec Ideal S512 .f32) : FVec Ideal S100000x512 .f32 :=
  maximumf
    (addf
      (mulf
        (mulf
          (subf h (broadcastInDim S100000x512 ![0, 1] bcast_S1x512_S100000x512_0_1
            (broadcastInDim S1x512 ![1] bcast_S512_S1x512_1 (meanV h))))
          (broadcastInDim S100000x512 ![0, 1] bcast_S1x512_S100000x512_0_1
            (broadcastInDim S1x512 ![1] bcast_S512_S1x512_1
              (Host.rsqrt (addf (varV h) (broadcastInDim S512 ![] bcast_S_S512 (constant S_ .f32 0x3727C5AC#32)))))))
        (broadcastInDim S100000x512 ![0, 1] bcast_S1x512_S100000x512_0_1 (broadcastInDim S1x512 ![1] bcast_S512_S1x512_1 a6)))
      (broadcastInDim S100000x512 ![0, 1] bcast_S1x512_S100000x512_0_1 (broadcastInDim S1x512 ![1] bcast_S512_S1x512_1 a7)))
    (broadcastInDim S100000x512 ![] bcast_S_S100000x512 (constant S_ .f32 0x00000000#32))

/-- The reference's result: the activation against the transposed second weight matrix, plus the bias row. -/
def out (a0 : FVec Ideal S100000x128 .f32) (a1 a2 : IVec S1600000 32) (a3 : FVec Ideal S1600000 .f32)
    (a4 : FVec Ideal S512x128 .f32) (a5 a6 a7 : FVec Ideal S512 .f32) (a8 : FVec Ideal S64x512 .f32)
    (a9 : FVec Ideal S64 .f32) : FVec Ideal S100000x64 .f32 :=
  addf (Host.dotGeneral dot_S100000x512_S512x64_S100000x64_1_0_0_1_n_n none (actV (hpre (ft a0 a1 a2 a3) a4 a5) a6 a7)
      (transpose S512x64 [1, 0] a8 transposes_S64x512_S512x64_1_0))
    (broadcastInDim S100000x64 ![0, 1] bcast_S1x64_S100000x64_0_1 (broadcastInDim S1x64 ![1] bcast_S64_S1x64_1 a9))

end Cert.ReferenceIdeal.HandRun

end
-- ==== Proof.RefRun.lean ====
/-
  The reference program's run, read back as one term.

  The reference is a straight line of host operations: three rounds of gather, multiply and scatter-add (the
  propagation over the graph), a contraction with the transposed first weight matrix plus bias, the column mean and
  the column variance (the latter through two outlined functions: the variance proper, which ends in a guarded
  select), the normalisation with scale and shift, the rectifier (a third outlined function), and the contraction
  with the transposed second weight matrix plus bias.  Listing the operations in order — the outlined functions'
  operations at their call sites, over the buffers of that call — turns the program into a fold over the launch
  memory, and the fold at the result buffer is the composed term `out` of the ten arguments.
-/
import proofs.«110060_j49778670960917_1_alg».proof.Proof.RefTerm
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of the first window (the propagation, the first layer, the mean and the variance), in order; the two
    outlined functions' operations stand at the call, over the buffers of that call. -/
abbrev ops0 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v7 (broadcastInDim S1600000x1 ![0] bcast_S1600000_S1600000x1_0 : (⟨S1600000, .f32⟩ : BufTy).Contents (Elt F) → (⟨S1600000x1, .f32⟩ : BufTy).Contents (Elt F)),
    StableHlo.unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg2 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_c_1 (constantI S_ 32 0#32),
    StableHlo.unary main_c_1 main_v13 (broadcastInDim S1600000 ![] bcast_S_S1600000 : (⟨S_, .i32⟩ : BufTy).Contents (Elt F) → (⟨S1600000, .i32⟩ : BufTy).Contents (Elt F)),
    StableHlo.binary main_arg1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v15 (broadcastInDim S1600000 ![] bcast_S_S1600000 : (⟨S_, .i32⟩ : BufTy).Contents (Elt F) → (⟨S1600000, .i32⟩ : BufTy).Contents (Elt F)),
    StableHlo.binary main_arg1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_arg1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_v12 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v20 (broadcastInDim S1600000x1 ![0] bcast_S1600000_S1600000x1_0 : (⟨S1600000, .f32⟩ : BufTy).Contents (Elt F) → (⟨S1600000x1, .f32⟩ : BufTy).Contents (Elt F)),
    StableHlo.unary main_v20 main_v21 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v19 main_v21 main_v22 (mulf : (⟨S1600000x128, .f32⟩ : BufTy).Contents (Elt F) → (⟨S1600000x128, .f32⟩ : BufTy).Contents (Elt F) → (⟨S1600000x128, .f32⟩ : BufTy).Contents (Elt F)),
    StableHlo.nullary main_cst_3 (constant S_ .f32 0x00000000#32),
    StableHlo.unary main_cst_3 main_v23 (broadcastInDim S100000x128 ![] bcast_S_S100000x128 : (⟨S_, .f32⟩ : BufTy).Contents (Elt F) → (⟨S100000x128, .f32⟩ : BufTy).Contents (Elt F)),
    StableHlo.unary main_arg2 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_c_4 (constantI S_ 32 0#32),
    StableHlo.unary main_c_4 main_v26 (broadcastInDim S1600000 ![] bcast_S_S1600000 : (⟨S_, .i32⟩ : BufTy).Contents (Elt F) → (⟨S1600000, .i32⟩ : BufTy).Contents (Elt F)),
    StableHlo.binary main_arg1 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v28 (broadcastInDim S1600000 ![] bcast_S_S1600000 : (⟨S_, .i32⟩ : BufTy).Contents (Elt F) → (⟨S1600000, .i32⟩ : BufTy).Contents (Elt F)),
    StableHlo.binary main_arg1 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_arg1 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v25 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v33 (broadcastInDim S1600000x1 ![0] bcast_S1600000_S1600000x1_0 : (⟨S1600000, .f32⟩ : BufTy).Contents (Elt F) → (⟨S1600000x1, .f32⟩ : BufTy).Contents (Elt F)),
    StableHlo.unary main_v33 main_v34 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v32 main_v34 main_v35 (mulf : (⟨S1600000x128, .f32⟩ : BufTy).Contents (Elt F) → (⟨S1600000x128, .f32⟩ : BufTy).Contents (Elt F) → (⟨S1600000x128, .f32⟩ : BufTy).Contents (Elt F)),
    StableHlo.nullary main_cst_6 (constant S_ .f32 0x00000000#32),
    StableHlo.unary main_cst_6 main_v36 (broadcastInDim S100000x128 ![] bcast_S_S100000x128 : (⟨S_, .f32⟩ : BufTy).Contents (Elt F) → (⟨S100000x128, .f32⟩ : BufTy).Contents (Elt F)),
    StableHlo.unary main_arg2 main_v37 (broadcastInDim S1600000x1 ![0] bcast_S1600000_S1600000x1_0 : (⟨S1600000, .i32⟩ : BufTy).Contents (Elt F) → (⟨S1600000x1, .i32⟩ : BufTy).Contents (Elt F)),
    StableHlo.ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg4 main_v39 ((transpose S128x512 [1, 0] · transposes_S512x128_S128x512_1_0) : (⟨S512x128, .f32⟩ : BufTy).Contents (Elt F) → (⟨S128x512, .f32⟩ : BufTy).Contents (Elt F)),
    StableHlo.binary main_v38 main_v39 main_v40 ((fun l r => Host.dotGeneral dot_S100000x128_S128x512_S100000x512_1_0_0_1_n_n none l r) : (⟨S100000x128, .f32⟩ : BufTy).Contents (Elt F) → (⟨S128x512, .f32⟩ : BufTy).Contents (Elt F) → (⟨S100000x512, .f32⟩ : BufTy).Contents (Elt F)),
    StableHlo.unary main_arg5 main_v41 (broadcastInDim S1x512 ![1] bcast_S512_S1x512_1 : (⟨S512, .f32⟩ : BufTy).Contents (Elt F) → (⟨S1x512, .f32⟩ : BufTy).Contents (Elt F)),
    StableHlo.unary main_v41 main_v42 (broadcastInDim S100000x512 ![0, 1] bcast_S1x512_S100000x512_0_1 : (⟨S1x512, .f32⟩ : BufTy).Contents (Elt F) → (⟨S100000x512, .f32⟩ : BufTy).Contents (Elt F)),
    StableHlo.binary main_v40 main_v42 main_v43 (addf : (⟨S100000x512, .f32⟩ : BufTy).Contents (Elt F) → (⟨S100000x512, .f32⟩ : BufTy).Contents (Elt F) → (⟨S100000x512, .f32⟩ : BufTy).Contents (Elt F)),
    StableHlo.nullary main_cst_7 (constant S_ .f32 0x00000000#32),
    StableHlo.binary main_v43 main_cst_7 main_v44 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_8 (constant S_ .f32 0x47C35000#32),
    StableHlo.unary main_cst_8 main_v45 (broadcastInDim S512 ![] bcast_S_S512 : (⟨S_, .f32⟩ : BufTy).Contents (Elt F) → (⟨S512, .f32⟩ : BufTy).Contents (Elt F)),
    StableHlo.binary main_v44 main_v45 main_v46 (Host.divf : (⟨S512, .f32⟩ : BufTy).Contents (Elt F) → (⟨S512, .f32⟩ : BufTy).Contents (Elt F) → (⟨S512, .f32⟩ : BufTy).Contents (Elt F)),
    StableHlo.nullary main_c_9 (constantI S_ 32 0#32),
    StableHlo.nullary main_call0_cst (constant S_ .f32 0x00000000#32),
    StableHlo.binary main_v43 main_call0_cst main_call0_v0 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.unary main_call0_v0 main_call0_v1 ((broadcastInDim S1x512 ![1] bcast_S512_S1x512_1) : (⟨S512, .f32⟩ : BufTy).Contents (Elt F) → (⟨S1x512, .f32⟩ : BufTy).Contents (Elt F)),
    StableHlo.nullary main_call0_cst_0 (constant S_ .f32 0x47C35000#32),
    StableHlo.unary main_call0_cst_0 main_call0_v2 ((broadcastInDim S1x512 ![] bcast_S_S1x512) : (⟨S_, .f32⟩ : BufTy).Contents (Elt F) → (⟨S1x512, .f32⟩ : BufTy).Contents (Elt F)),
    StableHlo.binary main_call0_v1 main_call0_v2 main_call0_v3 ((Host.divf) : (⟨S1x512, .f32⟩ : BufTy).Contents (Elt F) → (⟨S1x512, .f32⟩ : BufTy).Contents (Elt F) → (⟨S1x512, .f32⟩ : BufTy).Contents (Elt F)),
    StableHlo.unary main_call0_v3 main_call0_v4 ((broadcastInDim S100000x512 ![0, 1] bcast_S1x512_S100000x512_0_1) : (⟨S1x512, .f32⟩ : BufTy).Contents (Elt F) → (⟨S100000x512, .f32⟩ : BufTy).Contents (Elt F)),
    StableHlo.binary main_v43 main_call0_v4 main_call0_v5 ((subf) : (⟨S100000x512, .f32⟩ : BufTy).Contents (Elt F) → (⟨S100000x512, .f32⟩ : BufTy).Contents (Elt F) → (⟨S100000x512, .f32⟩ : BufTy).Contents (Elt F)),
    StableHlo.binary main_call0_v5 main_call0_v5 main_call0_v6 ((mulf) : (⟨S100000x512, .f32⟩ : BufTy).Contents (Elt F) → (⟨S100000x512, .f32⟩ : BufTy).Contents (Elt F) → (⟨S100000x512, .f32⟩ : BufTy).Contents (Elt F)),
    StableHlo.unary main_c_9 main_call0_v7 ((sitofp .f32) : (⟨S_, .i32⟩ : BufTy).Contents (Elt F) → (⟨S_, .f32⟩ : BufTy).Contents (Elt F)),
    StableHlo.nullary main_call0_cst_1 (constant S_ .f32 0x47C35000#32),
    StableHlo.binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.unary main_call0_v8 main_call0_v10 ((broadcastInDim S512 ![] bcast_S_S512) : (⟨S_, .f32⟩ : BufTy).Contents (Elt F) → (⟨S512, .f32⟩ : BufTy).Contents (Elt F)),
    StableHlo.binary main_call0_v9 main_call0_v10 main_call0_v11 ((Host.divf) : (⟨S512, .f32⟩ : BufTy).Contents (Elt F) → (⟨S512, .f32⟩ : BufTy).Contents (Elt F) → (⟨S512, .f32⟩ : BufTy).Contents (Elt F)),
    StableHlo.nullary main_call0_cst_3 (constant S_ .f32 0x00000000#32),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 ((id) : (⟨S_, .f32⟩ : BufTy).Contents (Elt F) → (⟨S_, .f32⟩ : BufTy).Contents (Elt F)),
    StableHlo.unary main_call0_call0_v0 main_call0_call0_v1 ((broadcastInDim S512 ![] bcast_S_S512) : (⟨S_, .f32⟩ : BufTy).Contents (Elt F) → (⟨S512, .f32⟩ : BufTy).Contents (Elt F)),
    StableHlo.ternary main_call0_v12 main_call0_v11 main_call0_call0_v1 main_v47 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)) ]

/-- The operations of the second window (normalisation, rectifier, second layer), in order. -/
abbrev ops1 : List (HloOp τ sig (Elt F)) :=
  [ StableHlo.unary main_v46 main_v48 (broadcastInDim S1x512 ![1] bcast_S512_S1x512_1 : (⟨S512, .f32⟩ : BufTy).Contents (Elt F) → (⟨S1x512, .f32⟩ : BufTy).Contents (Elt F)),
    StableHlo.unary main_v48 main_v49 (broadcastInDim S100000x512 ![0, 1] bcast_S1x512_S100000x512_0_1 : (⟨S1x512, .f32⟩ : BufTy).Contents (Elt F) → (⟨S100000x512, .f32⟩ : BufTy).Contents (Elt F)),
    StableHlo.binary main_v43 main_v49 main_v50 (subf : (⟨S100000x512, .f32⟩ : BufTy).Contents (Elt F) → (⟨S100000x512, .f32⟩ : BufTy).Contents (Elt F) → (⟨S100000x512, .f32⟩ : BufTy).Contents (Elt F)),
    StableHlo.nullary main_cst_10 (constant S_ .f32 0x3727C5AC#32),
    StableHlo.unary main_cst_10 main_v51 (broadcastInDim S512 ![] bcast_S_S512 : (⟨S_, .f32⟩ : BufTy).Contents (Elt F) → (⟨S512, .f32⟩ : BufTy).Contents (Elt F)),
    StableHlo.binary main_v47 main_v51 main_v52 (addf : (⟨S512, .f32⟩ : BufTy).Contents (Elt F) → (⟨S512, .f32⟩ : BufTy).Contents (Elt F) → (⟨S512, .f32⟩ : BufTy).Contents (Elt F)),
    StableHlo.unary main_v52 main_v53 (Host.rsqrt : (⟨S512, .f32⟩ : BufTy).Contents (Elt F) → (⟨S512, .f32⟩ : BufTy).Contents (Elt F)),
    StableHlo.unary main_v53 main_v54 (broadcastInDim S1x512 ![1] bcast_S512_S1x512_1 : (⟨S512, .f32⟩ : BufTy).Contents (Elt F) → (⟨S1x512, .f32⟩ : BufTy).Contents (Elt F)),
    StableHlo.unary main_v54 main_v55 (broadcastInDim S100000x512 ![0, 1] bcast_S1x512_S100000x512_0_1 : (⟨S1x512, .f32⟩ : BufTy).Contents (Elt F) → (⟨S100000x512, .f32⟩ : BufTy).Contents (Elt F)),
    StableHlo.binary main_v50 main_v55 main_v56 (mulf : (⟨S100000x512, .f32⟩ : BufTy).Contents (Elt F) → (⟨S100000x512, .f32⟩ : BufTy).Contents (Elt F) → (⟨S100000x512, .f32⟩ : BufTy).Contents (Elt F)),
    StableHlo.unary main_arg6 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S100000x512 ![0, 1] bcast_S1x512_S100000x512_0_1 : (⟨S1x512, .f32⟩ : BufTy).Contents (Elt F) → (⟨S100000x512, .f32⟩ : BufTy).Contents (Elt F)),
    StableHlo.binary main_v56 main_v58 main_v59 (mulf : (⟨S100000x512, .f32⟩ : BufTy).Contents (Elt F) → (⟨S100000x512, .f32⟩ : BufTy).Contents (Elt F) → (⟨S100000x512, .f32⟩ : BufTy).Contents (Elt F)),
    StableHlo.unary main_arg7 main_v60 (broadcastInDim S1x512 ![1] bcast_S512_S1x512_1 : (⟨S512, .f32⟩ : BufTy).Contents (Elt F) → (⟨S1x512, .f32⟩ : BufTy).Contents (Elt F)),
    StableHlo.unary main_v60 main_v61 (broadcastInDim S100000x512 ![0, 1] bcast_S1x512_S100000x512_0_1 : (⟨S1x512, .f32⟩ : BufTy).Contents (Elt F) → (⟨S100000x512, .f32⟩ : BufTy).Contents (Elt F)),
    StableHlo.binary main_v59 main_v61 main_v62 (addf : (⟨S100000x512, .f32⟩ : BufTy).Contents (Elt F) → (⟨S100000x512, .f32⟩ : BufTy).Contents (Elt F) → (⟨S100000x512, .f32⟩ : BufTy).Contents (Elt F)),
    StableHlo.nullary main_call1_cst (constant S_ .f32 0x00000000#32),
    StableHlo.unary main_call1_cst main_call1_v0 ((broadcastInDim S100000x512 ![] bcast_S_S100000x512) : (⟨S_, .f32⟩ : BufTy).Contents (Elt F) → (⟨S100000x512, .f32⟩ : BufTy).Contents (Elt F)),
    StableHlo.binary main_v62 main_call1_v0 main_v63 ((maximumf) : (⟨S100000x512, .f32⟩ : BufTy).Contents (Elt F) → (⟨S100000x512, .f32⟩ : BufTy).Contents (Elt F) → (⟨S100000x512, .f32⟩ : BufTy).Contents (Elt F)),
    StableHlo.unary main_arg8 main_v64 ((transpose S512x64 [1, 0] · transposes_S64x512_S512x64_1_0) : (⟨S64x512, .f32⟩ : BufTy).Contents (Elt F) → (⟨S512x64, .f32⟩ : BufTy).Contents (Elt F)),
    StableHlo.binary main_v63 main_v64 main_v65 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    StableHlo.unary main_arg9 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v67 main_v68 (addf : (⟨S100000x64, .f32⟩ : BufTy).Contents (Elt F) → (⟨S100000x64, .f32⟩ : BufTy).Contents (Elt F) → (⟨S100000x64, .f32⟩ : BufTy).Contents (Elt F)) ]

/-- All the operations, in order. -/
abbrev ops : List (HloOp τ sig (Elt F)) := ops0 ++ ops1

/-! ## The program is the list -/

set_option maxRecDepth 8192 in
set_option maxHeartbeats 4000000 in
/-- The first window is its list: the two outlined functions' definitions unfolded at the call and sequencing
    reassociated; an outlined function's operation carries its buffers' types with it, and moving a value to a literal
    buffer's own type and back is the identity, operation by operation. -/
theorem part0_eq (c : Dev nD) : main_part0 (F := F) c = seq ops0 := by
  simp only [main_part0, fn_var.body, fn_where.body, seq, bind_assoc, pure_bind]
  rfl

set_option maxRecDepth 8192 in
set_option maxHeartbeats 4000000 in
/-- The second window is its list. -/
theorem part1_eq (c : Dev nD) : main_part1 (F := F) c = seq ops1 := by
  simp only [main_part1, fn_relu.body, seq, bind_assoc, pure_bind]
  rfl

/-- The program is the two windows run in order, hence the concatenated list. -/
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-! ## The list's fold at the result is `out`, and it leaves the arguments alone -/

/-- The fold over a concatenation is the folds in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduceAdd Host.gather Host.scatterAdd in
set_option maxRecDepth 16384 in
set_option maxHeartbeats 8000000 in
/-- The fold at the result buffer is `out` of the arguments' contents: each operation's result is read off at its own
    buffer and passed over at every other; what remains is the composed term, and the named stages, opened, are that
    term. The sums and the gathers stay closed throughout: the equation never looks inside them. -/
theorem out_eq (V : Valuation τ sig (Elt Ideal)) :
    after (ops (F := Ideal)) V (main_v68 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp only [ops, after_app]
  after_results_simp
  unfold out actV varV devV cntV meanV hpre ft Cert.GraphMlp.hop3 Cert.GraphMlp.hop
  rfl

set_option maxRecDepth 16384 in
set_option maxHeartbeats 4000000 in
/-- No operation writes argument 0's buffer. -/
theorem arg0_eq (V : Valuation τ sig (Elt F)) :
    after (ops (F := F)) V (main_arg0 : DevRef τ sig) = V (main_arg0 : DevRef τ sig) := by
  simp only [ops, after_app]
  after_results_simp

set_option maxRecDepth 16384 in
set_option maxHeartbeats 4000000 in
/-- No operation writes argument 1's buffer. -/
theorem arg1_eq (V : Valuation τ sig (Elt F)) :
    after (ops (F := F)) V (main_arg1 : DevRef τ sig) = V (main_arg1 : DevRef τ sig) := by
  simp only [ops, after_app]
  after_results_simp

set_option maxRecDepth 16384 in
set_option maxHeartbeats 4000000 in
/-- No operation writes argument 2's buffer. -/
theorem arg2_eq (V : Valuation τ sig (Elt F)) :
    after (ops (F := F)) V (main_arg2 : DevRef τ sig) = V (main_arg2 : DevRef τ sig) := by
  simp only [ops, after_app]
  after_results_simp

set_option maxRecDepth 16384 in
set_option maxHeartbeats 4000000 in
/-- No operation writes argument 3's buffer. -/
theorem arg3_eq (V : Valuation τ sig (Elt F)) :
    after (ops (F := F)) V (main_arg3 : DevRef τ sig) = V (main_arg3 : DevRef τ sig) := by
  simp only [ops, after_app]
  after_results_simp

set_option maxRecDepth 16384 in
set_option maxHeartbeats 4000000 in
/-- No operation writes argument 4's buffer. -/
theorem arg4_eq (V : Valuation τ sig (Elt F)) :
    after (ops (F := F)) V (main_arg4 : DevRef τ sig) = V (main_arg4 : DevRef τ sig) := by
  simp only [ops, after_app]
  after_results_simp

set_option maxRecDepth 16384 in
set_option maxHeartbeats 4000000 in
/-- No operation writes argument 5's buffer. -/
theorem arg5_eq (V : Valuation τ sig (Elt F)) :
    after (ops (F := F)) V (main_arg5 : DevRef τ sig) = V (main_arg5 : DevRef τ sig) := by
  simp only [ops, after_app]
  after_results_simp

set_option maxRecDepth 16384 in
set_option maxHeartbeats 4000000 in
/-- No operation writes argument 6's buffer. -/
theorem arg6_eq (V : Valuation τ sig (Elt F)) :
    after (ops (F := F)) V (main_arg6 : DevRef τ sig) = V (main_arg6 : DevRef τ sig) := by
  simp only [ops, after_app]
  after_results_simp

set_option maxRecDepth 16384 in
set_option maxHeartbeats 4000000 in
/-- No operation writes argument 7's buffer. -/
theorem arg7_eq (V : Valuation τ sig (Elt F)) :
    after (ops (F := F)) V (main_arg7 : DevRef τ sig) = V (main_arg7 : DevRef τ sig) := by
  simp only [ops, after_app]
  after_results_simp

set_option maxRecDepth 16384 in
set_option maxHeartbeats 4000000 in
/-- No operation writes argument 8's buffer. -/
theorem arg8_eq (V : Valuation τ sig (Elt F)) :
    after (ops (F := F)) V (main_arg8 : DevRef τ sig) = V (main_arg8 : DevRef τ sig) := by
  simp only [ops, after_app]
  after_results_simp

set_option maxRecDepth 16384 in
set_option maxHeartbeats 4000000 in
/-- No operation writes argument 9's buffer. -/
theorem arg9_eq (V : Valuation τ sig (Elt F)) :
    after (ops (F := F)) V (main_arg9 : DevRef τ sig) = V (main_arg9 : DevRef τ sig) := by
  simp only [ops, after_app]
  after_results_simp

/-! ## The run -/

/-- From any memory with zero counters every weakly fair execution of the reference terminates with the result buffer
    at `out` of the ten arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v68).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_seq scopedRefs_eq scopedSems_eq defs main (fun _ => ops) main_eq (fun _ => ops_sub) m ρ)

end Cert.ReferenceIdeal.HandRun

end
-- ==== Proof.RefRead.lean ====
/-
  The reference's result at an index.

  Every operation of the reference's composed term is read at an index: a pointwise operation at the same index of its
  operands, a broadcast row at its column, a transposed matrix at the swapped index, a contraction as the sum over the
  contracted axis, a column sum as the initial value (zero) plus the sum over the rows.  The variance's guard compares
  the divisor — the number of rows minus zero — with zero and so always takes the quotient.  Read this way the result
  at row `r`, output `j` is the two-layer perceptron with batch normalisation of the specification, with the variance
  taken as the mean of the squared deviations.
-/
import proofs.«110060_j49778670960917_1_alg».proof.Proof.RefTerm
import proofs.«110060_j49778670960917_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.HandRead

open Cert.ReferenceIdeal Cert.ReferenceIdeal.Gen Idealize.ShloMosaic Idealize.ShloMosaic.ValueIdx Cert.GraphMlp
open Cert.ReferenceIdeal.HandRun

/-! ## Layout operations at an index -/

/-- A 512-vector laid as a row and spread over the 100000 rows reads, at `(r, k)`, its entry `k`. -/
theorem row512_apply {α : Type} (v : S512.Idx → α) (r : Fin 100000) (k : Fin 512) :
    broadcastInDim S100000x512 ![0, 1] bcast_S1x512_S100000x512_0_1 (broadcastInDim S1x512 ![1] bcast_S512_S1x512_1 v) (ix2 r k)
      = v (ix1 k) :=
  (broadcastInDim_apply _ bcast_S1x512_S100000x512_0_1 _ (ix2 r k) (ix2 (0 : Fin 1) k) (fun a => match a with
    | ⟨0, _⟩ => by show (0 : Nat) = if (1 : Nat) = 1 then 0 else r.val; rw [if_pos rfl]
    | ⟨1, _⟩ => by show k.val = if (512 : Nat) = 1 then 0 else k.val; rw [if_neg (by decide)])).trans
  (broadcastInDim_apply _ bcast_S512_S1x512_1 v (ix2 (0 : Fin 1) k) (ix1 k) (fun a => match a with
    | ⟨0, _⟩ => by show k.val = if (512 : Nat) = 1 then 0 else k.val; rw [if_neg (by decide)]))

/-- A 512-vector laid as a row reads, at `(0, k)`, its entry `k`. -/
theorem asRow512_apply {α : Type} (v : S512.Idx → α) (z : Fin 1) (k : Fin 512) :
    broadcastInDim S1x512 ![1] bcast_S512_S1x512_1 v (ix2 z k) = v (ix1 k) :=
  broadcastInDim_apply _ bcast_S512_S1x512_1 v (ix2 z k) (ix1 k) (fun a => match a with
    | ⟨0, _⟩ => by show k.val = if (512 : Nat) = 1 then 0 else k.val; rw [if_neg (by decide)])

/-- A row spread over the 100000 rows reads, at `(r, k)`, the row's entry `k`. -/
theorem spread512_apply {α : Type} (v : S1x512.Idx → α) (r : Fin 100000) (k : Fin 512) :
    broadcastInDim S100000x512 ![0, 1] bcast_S1x512_S100000x512_0_1 v (ix2 r k) = v (ix2 (0 : Fin 1) k) :=
  broadcastInDim_apply _ bcast_S1x512_S100000x512_0_1 _ (ix2 r k) (ix2 (0 : Fin 1) k) (fun a => match a with
    | ⟨0, _⟩ => by show (0 : Nat) = if (1 : Nat) = 1 then 0 else r.val; rw [if_pos rfl]
    | ⟨1, _⟩ => by show k.val = if (512 : Nat) = 1 then 0 else k.val; rw [if_neg (by decide)])

/-- A 64-vector laid as a row and spread over the 100000 rows reads, at `(r, j)`, its entry `j`. -/
theorem row64_apply {α : Type} (v : S64.Idx → α) (r : Fin 100000) (j : Fin 64) :
    broadcastInDim S100000x64 ![0, 1] bcast_S1x64_S100000x64_0_1 (broadcastInDim S1x64 ![1] bcast_S64_S1x64_1 v) (ix2 r j)
      = v (ix1 j) :=
  (broadcastInDim_apply _ bcast_S1x64_S100000x64_0_1 _ (ix2 r j) (ix2 (0 : Fin 1) j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])).trans
  (broadcastInDim_apply _ bcast_S64_S1x64_1 v (ix2 (0 : Fin 1) j) (ix1 j) (fun a => match a with
    | ⟨0, _⟩ => by show j.val = if (64 : Nat) = 1 then 0 else j.val; rw [if_neg (by decide)]))

/-- A scalar spread over a 512-vector reads the scalar. -/
theorem splat512_apply {α : Type} (c : S_.Idx → α) (i : S512.Idx) :
    broadcastInDim S512 ![] bcast_S_S512 c i = c ix0 :=
  broadcastInDim_apply _ bcast_S_S512 c i ix0 (fun a => a.elim0)

/-- A scalar spread over a row reads the scalar. -/
theorem splat1x512_apply {α : Type} (c : S_.Idx → α) (i : S1x512.Idx) :
    broadcastInDim S1x512 ![] bcast_S_S1x512 c i = c ix0 :=
  broadcastInDim_apply _ bcast_S_S1x512 c i ix0 (fun a => a.elim0)

/-- A scalar spread over the whole hidden array reads the scalar. -/
theorem splatAll_apply {α : Type} (c : S_.Idx → α) (i : S100000x512.Idx) :
    broadcastInDim S100000x512 ![] bcast_S_S100000x512 c i = c ix0 :=
  broadcastInDim_apply _ bcast_S_S100000x512 c i ix0 (fun a => a.elim0)

/-! ## The two contractions -/

abbrev D1 := dot_S100000x128_S128x512_S100000x512_1_0_0_1_n_n
abbrev D2 := dot_S100000x512_S512x64_S100000x64_1_0_0_1_n_n

theorem lhs1_0 (i : S100000x512.Idx) (q : D1.contr.Idx) : (D1.lhsIdx i q 0).val = (i 0).val := by
  unfold DotDims.lhsIdx
  rw [dif_neg (show ¬(0 : Fin S100000x128.rank) ∈ D1.lhsBatch by decide), dif_pos (show (0 : Fin S100000x128.rank) ∈ D1.lhsNonContracting by decide)]
  rfl
theorem lhs1_1 (i : S100000x512.Idx) (q : D1.contr.Idx) : (D1.lhsIdx i q 1).val = (q ⟨0, by decide⟩).val :=
  D1.lhsIdx_val_of_single rfl i q
theorem rhs1_0 (i : S100000x512.Idx) (q : D1.contr.Idx) : (D1.rhsIdx i q 0).val = (q ⟨0, by decide⟩).val :=
  D1.rhsIdx_val_of_single rfl i q
theorem rhs1_1 (i : S100000x512.Idx) (q : D1.contr.Idx) : (D1.rhsIdx i q 1).val = (i 1).val := by
  unfold DotDims.rhsIdx
  rw [dif_neg (show ¬(1 : Fin S128x512.rank) ∈ D1.rhsBatch by decide), dif_pos (show (1 : Fin S128x512.rank) ∈ D1.rhsNonContracting by decide)]
  rfl

/-- The first contraction at `(r, k)`: the sum over the 128 features. -/
theorem dot1_apply (x : FVec Ideal S100000x128 .f32) (w : FVec Ideal S128x512 .f32) (r : Fin 100000) (k : Fin 512) :
    Host.dotGeneral D1 none x w (ix2 r k) = ∑ d : Fin 128, x (ix2 r d) * w (ix2 d k) := by
  simp only [Host.dotGeneral]
  rw [Ideal.dotGeneral_apply, ← Equiv.sum_comp (ValueIdx.contrEquiv1 D1 128 rfl rfl).symm]
  refine Finset.sum_congr rfl fun d _ => ?_
  have hk := ValueIdx.contrEquiv1_symm_val D1 128 rfl rfl d
  have el : D1.lhsIdx (ix2 r k) ((ValueIdx.contrEquiv1 D1 128 rfl rfl).symm d) = ix2 r d := funext fun a => Fin.ext (by
    match a with
    | ⟨0, _⟩ => exact lhs1_0 _ _
    | ⟨1, _⟩ => exact (lhs1_1 _ _).trans hk)
  have er : D1.rhsIdx (ix2 r k) ((ValueIdx.contrEquiv1 D1 128 rfl rfl).symm d) = ix2 d k := funext fun a => Fin.ext (by
    match a with
    | ⟨0, _⟩ => exact (rhs1_0 _ _).trans hk
    | ⟨1, _⟩ => exact rhs1_1 _ _)
  rw [el, er]

theorem lhs2_0 (i : S100000x64.Idx) (q : D2.contr.Idx) : (D2.lhsIdx i q 0).val = (i 0).val := by
  unfold DotDims.lhsIdx
  rw [dif_neg (show ¬(0 : Fin S100000x512.rank) ∈ D2.lhsBatch by decide), dif_pos (show (0 : Fin S100000x512.rank) ∈ D2.lhsNonContracting by decide)]
  rfl
theorem lhs2_1 (i : S100000x64.Idx) (q : D2.contr.Idx) : (D2.lhsIdx i q 1).val = (q ⟨0, by decide⟩).val :=
  D2.lhsIdx_val_of_single rfl i q
theorem rhs2_0 (i : S100000x64.Idx) (q : D2.contr.Idx) : (D2.rhsIdx i q 0).val = (q ⟨0, by decide⟩).val :=
  D2.rhsIdx_val_of_single rfl i q
theorem rhs2_1 (i : S100000x64.Idx) (q : D2.contr.Idx) : (D2.rhsIdx i q 1).val = (i 1).val := by
  unfold DotDims.rhsIdx
  rw [dif_neg (show ¬(1 : Fin S512x64.rank) ∈ D2.rhsBatch by decide), dif_pos (show (1 : Fin S512x64.rank) ∈ D2.rhsNonContracting by decide)]
  rfl

/-- The second contraction at `(r, j)`: the sum over the 512 hidden units. -/
theorem dot2_apply (x : FVec Ideal S100000x512 .f32) (w : FVec Ideal S512x64 .f32) (r : Fin 100000) (j : Fin 64) :
    Host.dotGeneral D2 none x w (ix2 r j) = ∑ k : Fin 512, x (ix2 r k) * w (ix2 k j) := by
  simp only [Host.dotGeneral]
  rw [Ideal.dotGeneral_apply, ← Equiv.sum_comp (ValueIdx.contrEquiv1 D2 512 rfl rfl).symm]
  refine Finset.sum_congr rfl fun k _ => ?_
  have hk := ValueIdx.contrEquiv1_symm_val D2 512 rfl rfl k
  have el : D2.lhsIdx (ix2 r j) ((ValueIdx.contrEquiv1 D2 512 rfl rfl).symm k) = ix2 r k := funext fun a => Fin.ext (by
    match a with
    | ⟨0, _⟩ => exact lhs2_0 _ _
    | ⟨1, _⟩ => exact (lhs2_1 _ _).trans hk)
  have er : D2.rhsIdx (ix2 r j) ((ValueIdx.contrEquiv1 D2 512 rfl rfl).symm k) = ix2 k j := funext fun a => Fin.ext (by
    match a with
    | ⟨0, _⟩ => exact (rhs2_0 _ _).trans hk
    | ⟨1, _⟩ => exact rhs2_1 _ _)
  rw [el, er]

/-! ## A column sum -/

/-- The sum over the rows with initial value zero, at column `k`. -/
theorem colsum_apply (x : FVec Ideal S100000x512 .f32) (k : Fin 512) :
    Host.reduceAdd x (constant (F := Ideal) S_ .f32 0x00000000#32) reducesTo_S100000x512_S512_d0 h_S_ (ix1 k)
      = ∑ r : Fin 100000, x (ix2 r k) := by
  simp only [Host.reduceAdd, Ideal.hostReduceAdd_def]
  rw [Ideal.hostReduceAdd_single reducesTo_S100000x512_S512_d0 (by decide)]
  show Ideal.ofBits .f32 0x00000000#32 + _ = _
  rw [Ideal.ofBits_zero_f32, zero_add]
  refine Finset.sum_congr rfl fun r _ => ?_
  exact congrArg x (funext fun a => Fin.ext (by match a with | ⟨0, _⟩ => rfl | ⟨1, _⟩ => rfl))

/-! ## The transposed weight matrices -/

theorem w1T_apply (a4 : FVec Ideal S512x128 .f32) (d : Fin 128) (k : Fin 512) :
    transpose S128x512 [1, 0] a4 transposes_S512x128_S128x512_1_0 (ix2 d k) = a4 (ix2 k d) :=
  transpose_ix2_apply a4 _ d k

theorem w2T_apply (a8 : FVec Ideal S64x512 .f32) (k : Fin 512) (j : Fin 64) :
    transpose S512x64 [1, 0] a8 transposes_S64x512_S512x64_1_0 (ix2 k j) = a8 (ix2 j k) :=
  transpose_ix2_apply a8 _ k j

/-! ## The host's quotient and reciprocal square root at an index -/

theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl

/-! ## The stages -/

/-- The hidden pre-activation at `(r, k)`. -/
theorem hpre_apply (x : FVec Ideal S100000x128 .f32) (a4 : FVec Ideal S512x128 .f32) (a5 : FVec Ideal S512 .f32)
    (r : Fin 100000) (k : Fin 512) :
    hpre x a4 a5 (ix2 r k) = hid (fun d => x (ix2 r d)) a4 (a5 (ix1 k)) k := by
  unfold hpre hid
  rw [addf_apply, dot1_apply, row512_apply]
  refine congrArg (· + _) (Finset.sum_congr rfl fun d _ => ?_)
  rw [w1T_apply]

/-- The column mean at `k`. -/
theorem meanV_apply (h : FVec Ideal S100000x512 .f32) (k : Fin 512) :
    meanV h (ix1 k) = meanOf (fun r => h (ix2 r k)) := by
  unfold meanV meanOf
  rw [hdivf_apply, colsum_apply, splat512_apply, constant_apply]

/-- The deviation from the column mean at `(r, k)`. -/
theorem devV_apply (h : FVec Ideal S100000x512 .f32) (r : Fin 100000) (k : Fin 512) :
    devV h (ix2 r k) = h (ix2 r k) - meanOf (fun r' => h (ix2 r' k)) := by
  unfold devV meanOf
  rw [subf_apply, spread512_apply, hdivf_apply, asRow512_apply, colsum_apply, splat1x512_apply, constant_apply]

/-- The integer zero converts to the real zero. -/
theorem sitofp_zero : FloatOps.sitofp (F := Ideal) .f32 (0#32 : BitVec 32) = (0 : EReal) := by
  show (((0#32 : BitVec 32).toInt : ℝ) : EReal) = 0
  simp

/-- The variance's divisor is the number of rows. -/
theorem cntV_apply (i : S_.Idx) : cntV i = rows := by
  unfold cntV
  rw [subf_apply, sitofp_apply, constant_apply]
  show rows - FloatOps.sitofp (F := Ideal) .f32 (0#32 : BitVec 32) = rows
  rw [sitofp_zero, sub_zero]

theorem rows_pos : (0 : EReal) < rows := by
  rw [rows_eq]; exact_mod_cast (by norm_num : (0 : ℝ) < 100000)

/-- The guard of the variance's select holds: the divisor is positive. -/
theorem guard_one (i : S_.Idx) : cmpf .ogt cntV (constant (F := Ideal) S_ .f32 0x00000000#32) i = 1#1 := by
  rw [cmpf_apply, cntV_apply, constant_apply, Ideal.cmpf_def, Ideal.ofBits_zero_f32]
  show BitVec.ofBool (decide ((0 : EReal) < rows)) = 1#1
  rw [decide_eq_true rows_pos]
  rfl

/-- The column variance at `k`: the mean of the squared deviations. -/
theorem varV_apply (h : FVec Ideal S100000x512 .f32) (k : Fin 512) :
    varV h (ix1 k) = varTwoPass (fun r => h (ix2 r k)) := by
  unfold varV
  rw [select_apply, splat512_apply, guard_one, select_one, hdivf_apply, colsum_apply, splat512_apply, cntV_apply]
  unfold varTwoPass
  refine congrArg (Ideal.div · rows) (Finset.sum_congr rfl fun r _ => ?_)
  rw [mulf_apply, devV_apply]

/-- The activation at `(r, k)`. -/
theorem actV_apply (h : FVec Ideal S100000x512 .f32) (a6 a7 : FVec Ideal S512 .f32) (r : Fin 100000) (k : Fin 512) :
    actV h a6 a7 (ix2 r k)
      = act (h (ix2 r k)) (meanOf fun r' => h (ix2 r' k)) (varTwoPass fun r' => h (ix2 r' k)) (a6 (ix1 k)) (a7 (ix1 k)) := by
  unfold actV act
  rw [maximumf_apply, addf_apply, mulf_apply, mulf_apply, subf_apply, row512_apply, row512_apply, row512_apply,
    row512_apply, meanV_apply, hrsqrt_apply, addf_apply, varV_apply, splat512_apply, splatAll_apply, constant_apply,
    constant_apply, Ideal.ofBits_zero_f32]

/-- The propagated features are the specification's three propagation steps over the program's own records. -/
theorem ft_eq (a0 : FVec Ideal S100000x128 .f32) (a1 a2 : IVec S1600000 32) (a3 : FVec Ideal S1600000 .f32) :
    ft a0 a1 a2 a3 = Cert.GraphMlp.hop3 gather_S100000x128_S1600000x1_S1600000x128_1_0_n_n_0_1_1128 scatter_S100000x128_S1600000x1_S1600000x128_1_0_0_1
    bcast_S_S1600000 bcast_S1600000_S1600000x1_0 bcast_S1600000x1_S1600000x128_0_1 bcast_S_S100000x128 a0 a1 a2 a3 := rfl

/-- The reference's result at row `r`, output `j`, is the specification's perceptron over the propagated features, with the
    variance as the mean of the squared deviations. -/
theorem out_apply (a0 : FVec Ideal S100000x128 .f32) (a1 a2 : IVec S1600000 32) (a3 : FVec Ideal S1600000 .f32)
    (a4 : FVec Ideal S512x128 .f32) (a5 a6 a7 : FVec Ideal S512 .f32) (a8 : FVec Ideal S64x512 .f32)
    (a9 : FVec Ideal S64 .f32) (r : Fin 100000) (j : Fin 64) :
    HandRun.out a0 a1 a2 a3 a4 a5 a6 a7 a8 a9 (ix2 r j)
      = Cert.GraphMlp.result Cert.GraphMlp.varTwoPass (ft a0 a1 a2 a3) a4 (fun k => a5 (ix1 k)) (fun k => a6 (ix1 k))
          (fun k => a7 (ix1 k)) a8 (fun j => a9 (ix1 j)) r j := by
  unfold HandRun.out Cert.GraphMlp.result outv
  generalize ft a0 a1 a2 a3 = x
  rw [addf_apply, dot2_apply, row64_apply]
  refine congrArg (· + _) (Finset.sum_congr rfl fun k _ => ?_)
  rw [actV_apply, w2T_apply]
  simp only [hpre_apply]

end Cert.ReferenceIdeal.HandRead

end
-- ==== Proof.Finite.lean ====
/-
  From the precondition to real numbers.

  The precondition is one bit: the conjunction, over the eight float arguments, of "every entry's absolute value is
  below +∞".  A conjunction of bits is 1 only if each is; an `and`-reduction over a whole array is 1 only if every
  entry is; and an extended real whose absolute value `max x (-x)` is below +∞ is neither infinity, so it is a real
  number.  Read off here for the four arguments the variance identity needs: the node features, the edge weights,
  the first weight matrix and the first bias.
-/
import proofs.«110060_j49778670960917_1_alg».proof.Pre_finite_inputs
import proofs.«110060_j49778670960917_1_alg».proof.Proof.Gen.Pre_finite_inputs
import proofs.«110060_j49778670960917_1_alg».proof.Proof.Spec
import Idealize.ShloMosaic.Lib.ReduceAll
import Idealize.ShloMosaic.Lib.Affine
import Idealize.ShloMosaic.Lib.ValueIdx

noncomputable section

namespace Cert.Pre_finite_inputs.Finite

open Idealize.ShloMosaic Idealize.ShloMosaic.ValueIdx Cert.Pre_finite_inputs Cert.GraphMlp Cert.RealArrays

/-- Under the precondition the node features, the edge weights, the first weight matrix and the first bias are real. -/
theorem reals (a0 : FVec Ideal S100000x128 .f32) (a1 a2 : IVec S1600000 32) (a3 : FVec Ideal S1600000 .f32)
    (a4 : FVec Ideal S512x128 .f32) (a5 a6 a7 : FVec Ideal S512 .f32) (a8 : FVec Ideal S64x512 .f32) (a9 : FVec Ideal S64 .f32)
    (h : fn (F := Ideal) a0 a1 a2 a3 a4 a5 a6 a7 a8 a9 = fun _ => 1#1) :
    IsReal a0 ∧ IsReal a3 ∧ IsReal a4 ∧ IsReal a5 := by
  have h38 := congrFun h ix0
  dsimp only [fn, fn_part1, fn_part2] at h38
  obtain ⟨h33, -⟩ := IntOp.andi_eq_one.mp h38
  obtain ⟨h28, -⟩ := IntOp.andi_eq_one.mp h33
  obtain ⟨h23, -⟩ := IntOp.andi_eq_one.mp h28
  obtain ⟨h18, -⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨isReal_of_all a0 _ _ _ ix0 h3, isReal_of_all a3 _ _ _ ix0 h7, isReal_of_all a4 _ _ _ ix0 h12,
    isReal_of_all a5 _ _ _ ix0 h17⟩

end Cert.Pre_finite_inputs.Finite

end
-- ==== Proof.SpecBridge.lean ====
/-
  The variance may be taken either way.

  When the propagated features, the first weight matrix and the first bias are arrays of reals, every hidden
  pre-activation is a finite sum of products of reals plus a real, hence real; so each hidden column is a column of
  reals, its two variances agree, and the perceptron's result is the same number whichever variance is used.
-/
import proofs.«110060_j49778670960917_1_alg».proof.Proof.Spec

noncomputable section

open scoped BigOperators

namespace Cert.GraphMlp

open Idealize.ShloMosaic Idealize.ShloMosaic.ValueIdx

/-- A hidden pre-activation on a real row, against real weights, plus a real bias, is real. -/
theorem hid_isReal (x : Fin 128 → EReal) (w1 : (⟨2, ![512, 128]⟩ : Shape).Idx → EReal) (b : EReal) (k : Fin 512)
    (hx : IsReal x) (hw : IsReal w1) (hb : ∃ r : ℝ, b = (r : EReal)) : ∃ r : ℝ, hid x w1 b k = (r : EReal) := by
  have hprod : IsReal (fun d : Fin 128 => x d * w1 (ix2 k d)) := fun d => by
    obtain ⟨a, ha⟩ := hx d
    obtain ⟨w, hw'⟩ := hw (ix2 k d)
    exact ⟨a * w, by show x d * w1 (ix2 k d) = _; rw [ha, hw', EReal.coe_mul]⟩
  obtain ⟨s, hs⟩ := hprod.sum Finset.univ
  obtain ⟨rb, hrb⟩ := hb
  exact ⟨s + rb, by unfold hid; rw [hs, hrb, EReal.coe_add]⟩

/-- On real features, weights and bias the perceptron's result does not depend on which variance is used. -/
theorem result_onePass_eq_twoPass (ft : Nodes.Idx → EReal) (w1 : (⟨2, ![512, 128]⟩ : Shape).Idx → EReal)
    (b1 γ β : Fin 512 → EReal) (w2 : (⟨2, ![64, 512]⟩ : Shape).Idx → EReal) (b2 : Fin 64 → EReal)
    (hft : IsReal ft) (hw1 : IsReal w1) (hb1 : IsReal b1) (r : Fin 100000) (j : Fin 64) :
    result varOnePass ft w1 b1 γ β w2 b2 r j = result varTwoPass ft w1 b1 γ β w2 b2 r j := by
  unfold result
  refine congrArg (fun a => outv a w2 (b2 j) j) (funext fun k => ?_)
  rw [varOnePass_eq_varTwoPass _ (fun r' => hid_isReal _ w1 (b1 k) k (fun d => hft (ix2 r' d)) hw1 (hb1 k))]

end Cert.GraphMlp

end
-- ==== Proof.lean ====
/-
  Three propagation steps over a weighted graph followed by a two-layer perceptron with batch normalisation:
  a two-kernel program against its array-language reference, equal as functions on the extended reals.

  Both programs propagate the node features with the same host operations, so the propagated features are one
  function `hop3` of the arguments on both sides.  On them both compute
  `out(r, j) = Σ_k relu(((h(r,k) − mean k) · rsqrt(var k + ε)) · γ k + β k) · W2(j,k) + b2 j`,
  `h(r,k) = Σ_d ft(r,d) · W1(k,d) + b1 k`, `mean k = (Σ_r h(r,k)) / 100000`.
  The kernel program accumulates `Σ_r h` and `Σ_r h²` block by block in a first kernel region, forms
  `var k = (Σ_r h²)/100000 − (mean k)²` on the host, and recomputes `h` in a second region that writes the output
  blocks; the reference takes `var k = (Σ_r (h(r,k) − mean k)²)/100000`.  Sums may be regrouped freely on the extended
  reals; the two variances are one number exactly when the column `h(·,k)` is real, which the precondition gives:
  finite features and edge weights stay finite through gather, product and scatter-add, and finite weights and bias
  keep `h` finite.  No operation was rewritten by the idealization, so the fourth claim is trivial; the three frames
  are the programs' runs with the results dropped.
-/
import proofs.«110060_j49778670960917_1_alg».proof.Defs
import proofs.«110060_j49778670960917_1_alg».proof.Proof.Gen.Kernel
import proofs.«110060_j49778670960917_1_alg».proof.Proof.Gen.Kernel.Frame
import proofs.«110060_j49778670960917_1_alg».proof.Proof.Gen.KernelIdeal
import proofs.«110060_j49778670960917_1_alg».proof.Proof.Gen.KernelIdeal.Frame
import proofs.«110060_j49778670960917_1_alg».proof.Proof.Gen.ReferenceIdeal
import proofs.«110060_j49778670960917_1_alg».proof.Proof.Gen.Pre_finite_inputs
import proofs.«110060_j49778670960917_1_alg».proof.Proof.KRun
import proofs.«110060_j49778670960917_1_alg».proof.Proof.KValue
import proofs.«110060_j49778670960917_1_alg».proof.Proof.RefRun
import proofs.«110060_j49778670960917_1_alg».proof.Proof.RefRead
import proofs.«110060_j49778670960917_1_alg».proof.Proof.Finite
import proofs.«110060_j49778670960917_1_alg».proof.Proof.SpecBridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.HandRun.run m ρ)

/-- The propagated features are one function of the arguments in both programs: the two programs' gather and
    scatter records hold the same dimension numbers. -/
theorem ft_same (a0 : FVec Ideal Cert.KernelIdeal.S100000x128 .f32) (a1 a2 : IVec Cert.KernelIdeal.S1600000 32)
    (a3 : FVec Ideal Cert.KernelIdeal.S1600000 .f32) :
    Cert.ReferenceIdeal.HandRun.ft a0 a1 a2 a3 = Cert.KernelIdeal.HostValue.ftOf a0 a1 a2 a3 := rfl

/-- Under the precondition the reference's result, on the kernel program's arguments, is the kernel program's result
    buffer: entry by entry both are the perceptron on the propagated features, and on real columns the two variances
    agree. -/
theorem bridge (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hp : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) = fun _ => 1#1) :
    Cert.ReferenceIdeal.HandRun.out (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
      = Cert.KernelIdeal.Gen.W4 m ρ c (Proc.devRef .tc Cert.KernelIdeal.main_v50) := by
  funext i
  obtain ⟨r, j, rfl⟩ : ∃ (r : Fin 100000) (j : Fin 64), i = ix2 r j := ⟨i 0, i 1, eq_ix2 i⟩
  obtain ⟨h0, h3, h4, h5⟩ := Cert.Pre_finite_inputs.Finite.reals _ _ _ _ _ _ _ _ _ _ hp
  refine (Cert.ReferenceIdeal.HandRead.out_apply _ _ _ _ _ _ _ _ _ _ r j).trans ?_
  refine Eq.trans ?_ (Cert.KernelIdeal.KernelValue.value m ρ c r j).symm
  rw [ft_same]
  exact (Cert.GraphMlp.result_onePass_eq_twoPass _ _ _ _ _ _ _
    (Cert.GraphMlp.hop3_isReal _ _ _ _ _ _ _ _ _ _ h0 h3) h4 (fun k => h5 (ix1 k)) r j).symm

/-- The two idealized programs, from memories agreeing on the arguments, end with equal results. -/
theorem algebraic : Cert.algebraic_KernelIdeal_ReferenceIdeal := by
  intro m ρ m' ρ' hpre hagree
  refine ⟨fun c => Cert.KernelIdeal.Gen.W4 m ρ c (Proc.devRef .tc Cert.KernelIdeal.main_v50),
    Cert.KernelIdeal.ValueRun.run m ρ, ?_⟩
  refine (θ_run Cert.ReferenceIdeal.defs _ _).mono (fun _ h c => ⟨(h c).1.trans ?_, (h c).2⟩)
    (Cert.ReferenceIdeal.HandRun.run m' ρ')
  obtain ⟨e0, e1, e2, e3, e4, e5, e6, e7, e8, e9⟩ := hagree c
  rw [e0, e1, e2, e3, e4, e5, e6, e7, e8, e9]
  exact bridge m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
